-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x1 : Shape := ⟨2, ![1600000, 1]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S64x64 : S_.BroadcastsInDim S64x64 (![] : Fin 0 → Fin S64x64.rank)
  reducesTo_S64x64_S_d0_1 : S64x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_v13 : IVec S_ 1) (main_v15 : IVec S2x1600000 1) (main_c_5 : IVec S_ 32) : IVec S_ 1 :=
  let main_v16 : IVec S2x1600000 32 := broadcastInDim S2x1600000 ![] bcast_S_S2x1600000 main_c_5
  let main_v17 : IVec S2x1600000 1 := cmpi .slt main_arg1 main_v16
  let main_v18 : IVec S2x1600000 1 := andi main_v15 main_v17
  let main_c_6 : IVec S_ 1 := constantI S_ 1 1#1
  let main_v19 : IVec S_ 1 := (fun x v => Host.reduce IntOp.andi x v reducesTo_S2x1600000_S_d0_1 h_S_) main_v18 main_c_6
  let main_v20 : IVec S_ 1 := andi main_v13 main_v19
  main_v20

def fn {F : FTy → Type} [FloatOps F] (main_arg0 : FVec F S100000x64 .f32) (main_arg1 : IVec S2x1600000 32) (main_arg2 : FVec F S1600000x1 .f32) (main_arg3 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_c_4 : IVec S_ 32 := constantI S_ 32 0#32
  let main_v14 : IVec S2x1600000 32 := broadcastInDim S2x1600000 ![] bcast_S_S2x1600000 main_c_4
  let main_v15 : IVec S2x1600000 1 := cmpi .sge main_arg1 main_v14
  let main_c_5 : IVec S_ 32 := constantI S_ 32 100000#32
  fn_part1 (F := F) main_arg1 main_v13 main_v15 main_c_5
-- ==== Kernel.lean ====
abbrev S100000x64 : Shape := ⟨2, ![100000, 64]⟩
abbrev S2x1600000 : Shape := ⟨2, ![2, 1600000]⟩
abbrev S1600000x1 : Shape := ⟨2, ![1600000, 1]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩

abbrev nBuf : Space → Nat
  | .hbm => 55
  | .vmem => 7
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x1, .f32⟩
  | .hbm, ⟨3, _⟩ => ⟨S64x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S1600000, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .bf16⟩
  | .hbm, ⟨36, _⟩ => ⟨S1600000x64, .f32⟩
  | .hbm, ⟨37, _⟩ => ⟨S1600000x1, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000x1_S1600000 : S1600000x1.ShapeCasts S1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  packedbf16_S5000x64_S5000x64_0_0 : (Rect.unit (s := S5000x64) ![0, 0] S5000x64.size inb_S5000x64_S5000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  dot_S5000x64_S64x64_S5000x64_1_1_0_0_n_n_wf : DotDims.WF S5000x64 S64x64 S5000x64 [1] [1] [0] [0] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x1 : Shape := ⟨2, ![1600000, 1]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩

abbrev nBuf : Space → Nat
  | .hbm => 66
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x1, .f32⟩
  | .hbm, ⟨3, _⟩ => ⟨S64x64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S64x64, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  shapeCasts_S1600000x1_S1600000 : S1600000x1.ShapeCasts S1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  transposes_S64x64_S64x64_1_0 : S64x64.Transposes [1, 0] S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The mathematics of one graph-convolution layer with symmetric degree normalisation, stated once, over the
  extended reals, for 100000 nodes, 1600000 edges and 64 features.

  An edge `e` goes from node `row e` to node `col e` with weight `ew e`; every node also has a self loop of
  weight one. A node's degree is the number of edges that end in it plus one, and `dis n` is the degree (kept
  above a small positive floor) raised to the power −1/2. With `h = x · Wᵀ`, the layer's result at node `n`,
  feature `q`, is the sum over the edges ending in `n` (self loop included) of `h (row e) q · dis (row e) · ew e · dis n`.

  Two arrangements of that sum are stated here. `outEdgeFirst` scales every row of `h` by its own `dis` first,
  sums the scaled rows over the incoming edges, adds the node's own scaled row for the self loop, and multiplies the
  total by `dis n` once. `outPerEdge` multiplies each edge's term by both normalisers before summing, the self loops
  being a second sum over the nodes. They agree because `dis n` is a non-negative real: multiplication by such a
  number distributes over every sum of extended reals, infinite terms included.
-/
import Idealize.ShloMosaic.PureOps.Ideal
import Idealize.ShloMosaic.Lib.ValueIdx

noncomputable section

open scoped BigOperators

namespace Cert.Gcn

open Idealize.ShloMosaic Idealize.ShloMosaic.ValueIdx

/-- Node features, `[nodes, 64]`. -/
abbrev SX : Shape := ⟨2, ![100000, 64]⟩
/-- The weight matrix, `[64 out, 64 in]`. -/
abbrev SW : Shape := ⟨2, ![64, 64]⟩
/-- A per-node column, `[nodes, 1]`. -/
abbrev SD : Shape := ⟨2, ![100000, 1]⟩

/-- The float words the two programs carry: one, zero, the degree floor and the exponent −1/2. -/
abbrev oneW : EReal := Ideal.ofBits .f32 0x3F800000#32
abbrev zeroW : EReal := Ideal.ofBits .f32 0x00000000#32
abbrev floorW : EReal := Ideal.ofBits .f32 0x2B8CBCCC#32
abbrev mhalfW : EReal := Ideal.ofBits .f32 0xBF000000#32

/-- `(x · Wᵀ)[n, q]`: the contraction over the 64 input features. -/
def lin (x : FVec Ideal SX .f32) (w : FVec Ideal SW .f32) (n : Fin 100000) (q : Fin 64) : EReal :=
  ∑ k : Fin 64, x (ix2 n k) * w (ix2 q k)

/-- The rows of `x · Wᵀ`, each scaled by its node's entry of the column `d`. -/
def hprime (x : FVec Ideal SX .f32) (w : FVec Ideal SW .f32) (d : FVec Ideal SD .f32) : FVec Ideal SX .bf16 :=
  fun i => lin x w (i 0) (i 1) * d (ix2 (i 0) 0)

/-- The number of edges that end in node `n`, as a sum of ones. -/
def cnt (col : Fin 1600000 → Fin 100000) (n : Fin 100000) : EReal :=
  ∑ e : Fin 1600000, if col e = n then oneW else 0

/-- A degree, floored, to the power −1/2. -/
def disOf (a : EReal) : EReal := Ideal.pow (max floorW a) mhalfW

/-- The normaliser when the self loop's one is added after the edges' count … -/
def disA (col : Fin 1600000 → Fin 100000) (n : Fin 100000) : EReal := disOf ((zeroW + cnt col n) + oneW)
/-- … and when it is one more term of a single sum. -/
def disB (col : Fin 1600000 → Fin 100000) (n : Fin 100000) : EReal := disOf (zeroW + (cnt col n + oneW))

/-- Scale the rows first, sum over the incoming edges, add the node's own scaled row, scale the total once. -/
def outEdgeFirst (row col : Fin 1600000 → Fin 100000) (ew : Fin 1600000 → EReal) (h : Fin 100000 → Fin 64 → EReal)
    (n : Fin 100000) (q : Fin 64) : EReal :=
  disA col n * ((zeroW + ∑ e : Fin 1600000, if col e = n then (h (row e) q * disA col (row e)) * ew e else 0)
    + h n q * disA col n)

/-- Every edge's term carries both normalisers; the self loops are a second sum, over the nodes. -/
def outPerEdge (row col : Fin 1600000 → Fin 100000) (ew : Fin 1600000 → EReal) (h : Fin 100000 → Fin 64 → EReal)
    (n : Fin 100000) (q : Fin 64) : EReal :=
  zeroW + ((∑ e : Fin 1600000, if col e = n then h (row e) q * ((disB col (row e) * ew e) * disB col (col e)) else 0)
    + ∑ n' : Fin 100000, if n' = n then h n' q * ((disB col n' * oneW) * disB col n') else 0)

end Cert.Gcn

end
-- ==== Proof.Words.lean ====
/-
  Node indices as 32-bit words. An index array holds signed 32-bit words; a word between zero and the number of
  nodes is the same number whether it is read signed or unsigned, is left alone by the "negative index wraps
  around" adjustment that array indexing applies (add the extent when the word is negative), and is left alone by
  the clamp a gather applies to its start index. The position counter that fills the self loops' index range
  holds each node's number as such a word.
-/
import Idealize.ShloMosaic.PureOps.Ideal
import Idealize.ShloMosaic.Lib.ValueIdx

noncomputable section

namespace Cert.Gcn.Words

open Idealize.ShloMosaic Idealize.ShloMosaic.ValueIdx

/-- A node's number, written as a word, reads back signed as that number. -/
theorem toInt_ofNat (n : Nat) (h : n < 100000) : (BitVec.ofNat 32 n).toInt = (n : ℤ) := by
  rw [BitVec.toInt_eq_toNat_cond, BitVec.toNat_ofNat]
  have hm : n % 2 ^ 32 = n := Nat.mod_eq_of_lt (by omega)
  rw [hm]
  split <;> omega

/-- A non-negative word is not below zero, so the comparison "word < 0" is the zero bit. -/
theorem slt_zero_of_nonneg (v : BitVec 32) (h0 : 0 ≤ v.toInt) : IntOp.cmpi .slt v 0#32 = 0#1 := by
  unfold IntOp.cmpi
  have : v.slt 0#32 = false := by
    simp only [BitVec.slt, BitVec.toInt_zero, decide_eq_false_iff_not, not_lt]
    exact h0
  simp only [this]
  rfl

/-- The wrap-around adjustment leaves a non-negative word alone, whatever would have been added. -/
theorem wrap_id (v a : BitVec 32) (h0 : 0 ≤ v.toInt) : Scalar.select (IntOp.cmpi .slt v 0#32) a v = v := by
  rw [slt_zero_of_nonneg v h0]
  exact select_zero a v

/-- The gather's clamp leaves a node number alone. -/
theorem clamp_id (z : ℤ) (n : Nat) (hz : z = (n : ℤ)) (hn : n < 100000) : min z.toNat (100000 - 1) = n := by
  subst hz
  simp only [Int.toNat_natCast]
  omega

/-- The edge list, `[2, edges]`: sources in row 0, destinations in row 1. -/
abbrev SE : Shape := ⟨2, ![2, 1600000]⟩

/-- Row 0 of the edge list holds the node numbers `row e` … -/
def IsSrc (ei : IVec SE 32) (row : Fin 1600000 → Fin 100000) : Prop :=
  ∀ e : Fin 1600000, (ei (ix2 (0 : Fin 2) e)).toInt = ((row e).val : ℤ)
/-- … and row 1 the node numbers `col e`. -/
def IsDst (ei : IVec SE 32) (col : Fin 1600000 → Fin 100000) : Prop :=
  ∀ e : Fin 1600000, (ei (ix2 (1 : Fin 2) e)).toInt = ((col e).val : ℤ)

/-- Two node numbers are equal as integers exactly when they are the same node. -/
theorem node_eq_iff (a b : Fin 100000) : ((a.val : ℤ) = (b.val : ℤ)) ↔ a = b := by
  constructor
  · intro h; exact Fin.ext (by omega)
  · intro h; rw [h]

end Cert.Gcn.Words

end
-- ==== Proof.LibScatterGather.lean ====
/-
  A host scatter-add and a host gather along the leading axis, read at an index.

  `x.at[idx].add(upd)` with one scalar index per update row lowers to a scatter whose start indices form an
  `[M, 1]` array: update row `e` lands on operand row `idx[e, 0]`, read as a signed integer and NOT clamped, and is
  dropped when that row does not exist. At the ideal instance the result is the operand plus, at each element, the
  exact sum of the updates that land on it; read at an index this is a sum over the update rows of "the update if
  its index is this row, else nothing". `x[idx]` lowers to a gather over the same `[M, 1]` index array: result
  row `e` is operand row `idx[e, 0]`, read signed and clamped into the operand.

  Both are stated for a flat operand `[N]` and for a matrix `[N, C]` whose rows are scattered or gathered whole.
-/
import Idealize.ShloMosaic.PureOps.Ideal
import Idealize.ShloMosaic.PureOps.Contract
import Idealize.ShloMosaic.Lib.ValueIdx

noncomputable section

open scoped BigOperators

namespace Cert.Lib.Rows

open Idealize.ShloMosaic Idealize.ShloMosaic.ValueIdx

/-! ## Sums over a rank-1 index set -/

/-- A rank-1 index set is its coordinate's range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ e : Fin n, f (ix1 e) := by
  rw [← Equiv.sum_comp (idxEquiv1 (n := n)).symm f]
  rfl

/-- An operand axis receives window coordinates exactly when it is not an inserted one. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-! ## Scatter-add of the rows of a matrix -/

/-- The dimension numbers of `x.at[idx].add(upd)` for `x : [N, C]`, `idx : [M, 1]`, `upd : [M, C]`. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)

/-- On the row axis an update starts at its index word, read signed. -/
theorem rowScatter_start0 (idx : IVec ⟨2, ![M, 1]⟩ w) (e : Fin M) (q : Fin C) :
    (rowScatterDims N M C wf).start (ix2 e q) idx 0 = (idx (ix2 e 0)).toInt := by
  unfold ScatterDims.start
  rw [dif_pos (show (0 : Fin 2) ∈ (rowScatterDims N M C wf).scatterDimsToOperandDims from List.mem_singleton.mpr rfl)]
  have hsi : (rowScatterDims N M C wf).siIdx (ix2 e q) ⟨List.idxOf (0 : Fin 2) (rowScatterDims N M C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the feature axis it starts at zero. -/
theorem rowScatter_start1 (idx : IVec ⟨2, ![M, 1]⟩ w) (j : (⟨2, ![M, C]⟩ : Shape).Idx) :
    (rowScatterDims N M C wf).start j idx 1 = 0 := by
  unfold ScatterDims.start
  rw [dif_neg (fun h => absurd (List.mem_singleton.mp h) (show (1 : Fin 2) ≠ 0 by decide))]

/-- The window has no extent along the rows … -/
theorem rowScatter_window0 (j : (⟨2, ![M, C]⟩ : Shape).Idx) : (rowScatterDims N M C wf).window j 0 = 0 := by
  unfold ScatterDims.window
  rw [dif_neg (fun h => ((scatter_mem_sKept _ _).mp h) (List.mem_singleton.mpr rfl))]

/-- … and is the update's own coordinate along the features. -/
theorem rowScatter_window1 (e : Fin M) (q : Fin C) : (rowScatterDims N M C wf).window (ix2 e q) 1 = q.val := by
  unfold ScatterDims.window
  rw [dif_pos ((scatter_mem_sKept _ _).mpr (fun h => absurd (List.mem_singleton.mp h) (show (1 : Fin 2) ≠ 0 by decide)))]
  rfl

end RowScatter

section RowScatterApply
variable {N M C w : Nat} (wf : ScatterDims.WF ⟨2, ![N, C]⟩ ⟨2, ![M, 1]⟩ ⟨2, ![M, C]⟩ [1] [0] [0] 1)

/-- Update `(e, q)` lands on element `(n, q')` exactly when its index word is the row `n` and `q = q'`. -/
theorem rowScatter_lands_iff (idx : IVec ⟨2, ![M, 1]⟩ w) (e : Fin M) (q : Fin C) (n : Fin N) (q' : Fin C) :
    (rowScatterDims N M C wf).resultIdx? (ix2 e q) idx = some (ix2 n q') ↔ (idx (ix2 e 0)).toInt = (n.val : ℤ) ∧ q = q' := by
  have hs0 := rowScatter_start0 (N := N) wf idx e q
  have hs1 := rowScatter_start1 (N := N) wf idx (ix2 e q)
  have hw0 := rowScatter_window0 (N := N) wf (ix2 e q)
  have hw1 := rowScatter_window1 (N := N) wf e q
  have hn : n.val < N := n.isLt
  have hq : q.val < C := q.isLt
  unfold ScatterDims.resultIdx?
  constructor
  · intro heq
    split at heq
    · rename_i h
      have hf := Option.some.inj heq
      have h0 : ((rowScatterDims N M C wf).start (ix2 e q) idx 0 + ((rowScatterDims N M C wf).window (ix2 e q) 0 : ℕ)).toNat = n.val :=
        congrArg (fun f => (f 0).val) hf
      have h1 : ((rowScatterDims N M C wf).start (ix2 e q) idx 1 + ((rowScatterDims N M C wf).window (ix2 e q) 1 : ℕ)).toNat = q'.val :=
        congrArg (fun f => (f 1).val) hf
      have hb := (h 0).1
      rw [hs0, hw0] at h0 hb
      rw [hs1, hw1] at h1
      exact ⟨by omega, Fin.ext (by omega)⟩
    · exact absurd heq (by simp)
  · rintro ⟨hz, rfl⟩
    have hall : ∀ a, 0 ≤ (rowScatterDims N M C wf).start (ix2 e q) idx a + ((rowScatterDims N M C wf).window (ix2 e q) a : ℕ) ∧
        (rowScatterDims N M C wf).start (ix2 e q) idx a + ((rowScatterDims N M C wf).window (ix2 e q) a : ℕ) < ((⟨2, ![N, C]⟩ : Shape).size a : ℕ) := by
      refine Fin.forall_fin_two.mpr ⟨?_, ?_⟩
      · rw [hs0, hw0]; refine ⟨by omega, ?_⟩; show _ < ((N : ℕ) : ℤ); omega
      · rw [hs1, hw1]; refine ⟨by omega, ?_⟩; show _ < ((C : ℕ) : ℤ); omega
    rw [dif_pos hall]
    refine congrArg some (funext (Fin.forall_fin_two.mpr ⟨Fin.ext ?_, Fin.ext ?_⟩))
    · show ((rowScatterDims N M C wf).start (ix2 e q) idx 0 + ((rowScatterDims N M C wf).window (ix2 e q) 0 : ℕ)).toNat = n.val
      rw [hs0, hw0]; omega
    · show ((rowScatterDims N M C wf).start (ix2 e q) idx 1 + ((rowScatterDims N M C wf).window (ix2 e q) 1 : ℕ)).toNat = q.val
      rw [hs1, hw1]; omega

/-- THE SCATTER-ADD OF ROWS READ AT `(n, q)`: the operand's element plus the sum, over the update rows whose index
    word is `n`, of their element in column `q`. -/
theorem rowScatterAdd_apply (x : FVec Ideal ⟨2, ![N, C]⟩ .f32) (idx : IVec ⟨2, ![M, 1]⟩ w) (upd : FVec Ideal ⟨2, ![M, C]⟩ .f32)
    (n : Fin N) (q : Fin C) :
    Host.scatterAdd (rowScatterDims N M C wf) x idx upd (ix2 n q)
      = x (ix2 n q) + ∑ e : Fin M, if (idx (ix2 e 0)).toInt = (n.val : ℤ) then upd (ix2 e q) else 0 := by
  show Ideal.hostScatterAdd (rowScatterDims N M C wf) x idx upd (ix2 n q) = _
  unfold Ideal.hostScatterAdd
  refine congrArg (x (ix2 n q) + ·) ?_
  rw [Finset.sum_filter, sum_idx2]
  refine Finset.sum_congr rfl (fun e _ => ?_)
  by_cases hz : (idx (ix2 e 0)).toInt = (n.val : ℤ)
  · rw [if_pos hz]
    rw [Finset.sum_eq_single q]
    · rw [if_pos ((rowScatter_lands_iff wf idx e q n q).mpr ⟨hz, rfl⟩)]
    · intro q2 _ hne
      rw [if_neg (fun h => hne ((rowScatter_lands_iff wf idx e q2 n q).mp h).2)]
    · intro h; exact absurd (Finset.mem_univ q) h
  · rw [if_neg hz]
    refine Finset.sum_eq_zero (fun q2 _ => ?_)
    rw [if_neg (fun h => hz ((rowScatter_lands_iff wf idx e q2 n q).mp h).1)]

end RowScatterApply

/-! ## Scatter-add into a flat array -/

/-- The dimension numbers of `x.at[idx].add(upd)` for `x : [N]`, `idx : [M, 1]`, `upd : [M]`. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)

/-- An update starts at its index word, read signed. -/
theorem flatScatter_start0 (idx : IVec ⟨2, ![M, 1]⟩ w) (e : Fin M) :
    (flatScatterDims N M wf).start (ix1 e) idx 0 = (idx (ix2 e 0)).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The window is a single element. -/
theorem flatScatter_window0 (j : (⟨1, ![M]⟩ : Shape).Idx) : (flatScatterDims N M wf).window j 0 = 0 := by
  unfold ScatterDims.window
  rw [dif_neg (fun h => ((scatter_mem_sKept _ _).mp h) (List.mem_singleton.mpr rfl))]

/-- Update `e` lands on element `n` exactly when its index word is `n`. -/
theorem flatScatter_lands_iff (idx : IVec ⟨2, ![M, 1]⟩ w) (e : Fin M) (n : Fin N) :
    (flatScatterDims N M wf).resultIdx? (ix1 e) idx = some (ix1 n) ↔ (idx (ix2 e 0)).toInt = (n.val : ℤ) := by
  have hs0 := flatScatter_start0 (N := N) wf idx e
  have hw0 := flatScatter_window0 (N := N) wf (ix1 e)
  have hn : n.val < N := n.isLt
  unfold ScatterDims.resultIdx?
  constructor
  · intro heq
    split at heq
    · rename_i h
      have hf := Option.some.inj heq
      have h0 : ((flatScatterDims N M wf).start (ix1 e) idx 0 + ((flatScatterDims N M wf).window (ix1 e) 0 : ℕ)).toNat = n.val :=
        congrArg (fun f => (f 0).val) hf
      have hb := (h 0).1
      rw [hs0, hw0] at h0 hb
      omega
    · exact absurd heq (by simp)
  · intro hz
    have hall : ∀ a, 0 ≤ (flatScatterDims N M wf).start (ix1 e) idx a + ((flatScatterDims N M wf).window (ix1 e) a : ℕ) ∧
        (flatScatterDims N M wf).start (ix1 e) idx a + ((flatScatterDims N M wf).window (ix1 e) a : ℕ) < ((⟨1, ![N]⟩ : Shape).size a : ℕ) := by
      refine Fin.forall_fin_one.mpr ?_
      rw [hs0, hw0]; refine ⟨by omega, ?_⟩; show _ < ((N : ℕ) : ℤ); omega
    rw [dif_pos hall]
    refine congrArg some (funext (Fin.forall_fin_one.mpr (Fin.ext ?_)))
    show ((flatScatterDims N M wf).start (ix1 e) idx 0 + ((flatScatterDims N M wf).window (ix1 e) 0 : ℕ)).toNat = n.val
    rw [hs0, hw0]; omega

/-- THE FLAT SCATTER-ADD READ AT `n`: the operand's element plus the sum of the updates whose index word is `n`. -/
theorem flatScatterAdd_apply (x : FVec Ideal ⟨1, ![N]⟩ .f32) (idx : IVec ⟨2, ![M, 1]⟩ w) (upd : FVec Ideal ⟨1, ![M]⟩ .f32)
    (n : Fin N) :
    Host.scatterAdd (flatScatterDims N M wf) x idx upd (ix1 n)
      = x (ix1 n) + ∑ e : Fin M, if (idx (ix2 e 0)).toInt = (n.val : ℤ) then upd (ix1 e) else 0 := by
  show Ideal.hostScatterAdd (flatScatterDims N M wf) x idx upd (ix1 n) = _
  unfold Ideal.hostScatterAdd
  refine congrArg (x (ix1 n) + ·) ?_
  rw [Finset.sum_filter, sum_idx1]
  refine Finset.sum_congr rfl (fun e _ => ?_)
  by_cases hz : (idx (ix2 e 0)).toInt = (n.val : ℤ)
  · rw [if_pos hz, if_pos ((flatScatter_lands_iff wf idx e n).mpr hz)]
  · rw [if_neg hz, if_neg (fun h => hz ((flatScatter_lands_iff wf idx e n).mp h))]

end FlatScatter

/-! ## Gathers along the leading axis -/

/-- The dimension numbers of `x[idx]` for `x : [N, C]`, `idx : [M, 1]`: whole rows. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of `x[idx]` for `x : [N]`, `idx : [M, 1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

section Gathers
variable {α : Type} {N M C w : Nat}

/-- THE ROW GATHER READ AT `(e, q)`: the operand's row at the index word `idx[e, 0]`, read signed and clamped into
    `[0, N − 1]`, in column `q`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) :
    Host.gather (rowGatherDims N M C wf) x idx (ix2 e q)
      = x (ix2 ⟨min (idx (ix2 e 0)).toInt.toNat (N - 1), by omega⟩ q) := by
  unfold Host.gather
  refine congrArg x (funext (Fin.forall_fin_two.mpr ⟨Fin.ext ?_, Fin.ext ?_⟩))
  · show (rowGatherDims N M C wf).start (ix2 e q) idx 0 + (rowGatherDims N M C wf).batchCoord (ix2 e q) 0
        + (rowGatherDims N M C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e q) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · show (rowGatherDims N M C wf).start (ix2 e q) idx 1 + (rowGatherDims N M C wf).batchCoord (ix2 e q) 1
        + (rowGatherDims N M C wf).offCoord (ix2 e q) 1 = q.val
    rw [GatherDims.batchCoord_eq_zero _ _ _ List.not_mem_nil]
    have hst : (rowGatherDims N M C wf).start (ix2 e q) idx 1 = 0 := by
      unfold GatherDims.start
      rw [dif_neg (fun h => absurd (List.mem_singleton.mp h) (show (1 : Fin 2) ≠ 0 by decide))]
    have hoff : (rowGatherDims N M C wf).offCoord (ix2 e q) 1 = q.val := by
      unfold GatherDims.offCoord
      rw [dif_pos ((GatherDims.mem_sKept _ _).mpr ⟨fun h => absurd (List.mem_singleton.mp h) (show (1 : Fin 2) ≠ 0 by decide),
        List.not_mem_nil⟩)]
      rfl
    rw [hst, hoff]; omega

/-- THE FLAT GATHER READ AT `e`: the operand at the index word `idx[e, 0]`, read signed and clamped into `[0, N − 1]`. -/
theorem flatGather_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 ⟨min (idx (ix2 e 0)).toInt.toNat (N - 1), by omega⟩) := by
  unfold Host.gather
  refine congrArg x (funext (Fin.forall_fin_one.mpr (Fin.ext ?_)))
  show (flatGatherDims N M wf).start (ix1 e) idx 0 + (flatGatherDims N M wf).batchCoord (ix1 e) 0
      + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A row gather whose index word is the number of an existing row `k` reads row `k`: the clamp does nothing. -/
theorem rowGather_apply_of_eq
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) (k : Fin N)
    (hk : (idx (ix2 e 0)).toInt = (k.val : ℤ)) :
    Host.gather (rowGatherDims N M C wf) x idx (ix2 e q) = x (ix2 k q) := by
  have hlt := k.isLt
  refine (rowGather_apply (by omega) wf x idx e q).trans (congrArg (fun j => x (ix2 j q)) (Fin.ext ?_))
  show min (idx (ix2 e 0)).toInt.toNat (N - 1) = k.val
  rw [hk, Int.toNat_natCast]; omega

/-- A flat gather whose index word is the number of an existing element `k` reads element `k`. -/
theorem flatGather_apply_of_eq
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) (k : Fin N)
    (hk : (idx (ix2 e 0)).toInt = (k.val : ℤ)) :
    Host.gather (flatGatherDims N M wf) x idx (ix1 e) = x (ix1 k) := by
  have hlt := k.isLt
  refine (flatGather_apply (by omega) wf x idx e).trans (congrArg (fun j => x (ix1 j)) (Fin.ext ?_))
  show min (idx (ix2 e 0)).toInt.toNat (N - 1) = k.val
  rw [hk, Int.toNat_natCast]; omega

end Gathers

end Cert.Lib.Rows

end
-- ==== Proof.KernelHost.lean ====
/-
  The kernel program's host-side stages, each read at one element.

  Around its one device region the kernel program splits the edge list into a source row and a destination row,
  flattens the weight column, counts each node's incoming edges by a scatter-add of ones and adds one for the self
  loop, floors the degree and raises it to the power −1/2 (the normaliser, reshaped to a column the region
  consumes), and — after the region has produced the rows of `x · Wᵀ` scaled by their normalisers — gathers those
  scaled rows at the sources, multiplies by the weights, scatter-adds them into their destinations' rows, adds each
  node's own scaled row and multiplies by the node's normaliser. Read at node `n`, feature `q`, the tail is the
  "scale the rows first" arrangement of the layer. The index words are node numbers, so the wrap-around
  adjustment and the gather's clamp leave them alone.
-/
import proofs.«139451_j10788957847626_2_alg».proof.Proof.Gen.KernelIdeal.Frame
import proofs.«139451_j10788957847626_2_alg».proof.Proof.Spec
import proofs.«139451_j10788957847626_2_alg».proof.Proof.Words
import proofs.«139451_j10788957847626_2_alg».proof.Proof.LibScatterGather
import Idealize.ShloMosaic.Lib.Pipeline.Value

noncomputable section

open scoped BigOperators

namespace Cert.KernelIdeal.HostValue

open Cert.KernelIdeal Cert.KernelIdeal.Gen Idealize.ShloMosaic Idealize.ShloMosaic.TcCoe Idealize.ShloMosaic.ValueIdx
open Cert.Gcn Cert.Gcn.Words Cert.Lib.Rows

/-! ## The stages -/

/-- The sources: row 0 of the edge list, flattened. -/
def srcK (x1 : IVec S2x1600000 32) : IVec S1600000 32 :=
  shapeCast S1600000 (extractStridedSlice S1x1600000 ![0, 0] x1 slices_S2x1600000_S1x1600000_0_0) shapeCasts_S1x1600000_S1600000
/-- The destinations: row 1 of the edge list, flattened. -/
def dstK (x1 : IVec S2x1600000 32) : IVec S1600000 32 :=
  shapeCast S1600000 (extractStridedSlice S1x1600000 ![1, 0] x1 slices_S2x1600000_S1x1600000_1_0) shapeCasts_S1x1600000_S1600000
/-- The weights, flattened. -/
def wgtK (x2 : FVec Ideal S1600000x1 .f32) : FVec Ideal S1600000 .f32 :=
  shapeCast S1600000 x2 shapeCasts_S1600000x1_S1600000

/-- Zero at every node. -/
def zerosN : FVec Ideal S100000 .f32 := broadcastInDim S100000 ![] bcast_S_S100000 (constant (F := Ideal) S_ .f32 0x00000000#32)
/-- One at every node. -/
def onesN : FVec Ideal S100000 .f32 := broadcastInDim S100000 ![] bcast_S_S100000 (constant (F := Ideal) S_ .f32 0x3F800000#32)
/-- One at every edge. -/
def onesE : FVec Ideal S1600000 .f32 := broadcastInDim S1600000 ![] bcast_S_S1600000 (constant (F := Ideal) S_ .f32 0x3F800000#32)
/-- The degree floor at every node. -/
def floorN : FVec Ideal S100000 .f32 := broadcastInDim S100000 ![] bcast_S_S100000 (id (constant (F := Ideal) S_ .f32 0x2B8CBCCC#32))
/-- The exponent −1/2 at every node. -/
def mhalfN : FVec Ideal S100000 .f32 := broadcastInDim S100000 ![] bcast_S_S100000 (constant (F := Ideal) S_ .f32 0xBF000000#32)
/-- Zero at every element of the result. -/
def zerosNC : FVec Ideal S100000x64 .f32 := broadcastInDim S100000x64 ![] bcast_S_S100000x64 (constant (F := Ideal) S_ .f32 0x00000000#32)
/-- A per-edge index array as the `[edges, 1]` column a scatter or gather takes. -/
def colOf (R : IVec S1600000 32) : IVec S1600000x1 32 := broadcastInDim S1600000x1 ![0] bcast_S1600000_S1600000x1_0 R

/-- The incoming-edge counts: a one added at every edge's destination, from zero. -/
def cntK (x1 : IVec S2x1600000 32) : FVec Ideal S100000 .f32 :=
  Host.scatterAdd scatter_S100000_S1600000x1_S1600000_n_0_0_1 zerosN (colOf (dstK x1)) onesE

/-- The degrees: the counts, and one more for the self loop. -/
def degK (x1 : IVec S2x1600000 32) : FVec Ideal S100000 .f32 := addf (cntK x1) onesN

/-- The normalisers as a column: the floored degree to the power −1/2. -/
def disK (x1 : IVec S2x1600000 32) : FVec Ideal S100000x1 .f32 :=
  shapeCast S100000x1 (Host.powf (maximumf floorN (degK x1)) mhalfN) shapeCasts_S100000_S100000x1

/-- The wrap-around adjustment of an index array: the extent is added where the word is negative. -/
def wrapK (R : IVec S1600000 32) : IVec S1600000 32 :=
  select (cmpi .slt R (broadcastInDim S1600000 ![] bcast_S_S1600000 (constantI S_ 32 0#32)))
    (addi R (broadcastInDim S1600000 ![] bcast_S_S1600000 (constantI S_ 32 100000#32))) R

/-- The scaled rows gathered at the edges' sources. -/
def gthK (R : IVec S1600000 32) (HP : FVec Ideal S100000x64 .bf16) : FVec Ideal S1600000x64 .bf16 :=
  Host.gather gather_S100000x64_S1600000x1_S1600000x64_1_0_n_n_0_1_164 HP (colOf (wrapK R))

/-- The weights repeated along the features. -/
def wgtB (EW : FVec Ideal S1600000 .f32) : FVec Ideal S1600000x64 .f32 :=
  broadcastInDim S1600000x64 ![0, 1] bcast_S1600000x1_S1600000x64_0_1
    (broadcastInDim S1600000x1 ![0] bcast_S1600000_S1600000x1_0 EW)

/-- Each edge's message: its source's scaled row times its weight. -/
def updK (R : IVec S1600000 32) (EW : FVec Ideal S1600000 .f32) (HP : FVec Ideal S100000x64 .bf16) :
    FVec Ideal S1600000x64 .f32 :=
  mulf (extf .f32 (gthK R HP) bitsLt_bf16_f32) (wgtB EW)

/-- The messages added into their destinations' rows, from zero. -/
def msgK (R C : IVec S1600000 32) (EW : FVec Ideal S1600000 .f32) (HP : FVec Ideal S100000x64 .bf16) :
    FVec Ideal S100000x64 .f32 :=
  Host.scatterAdd scatter_S100000x64_S1600000x1_S1600000x64_1_0_0_1 zerosNC (colOf (wrapK C)) (updK R EW HP)

/-- The normaliser column repeated along the features. -/
def disB (D2 : FVec Ideal S100000x1 .f32) : FVec Ideal S100000x64 .f32 :=
  broadcastInDim S100000x64 ![0, 1] bcast_S100000x1_S100000x64_0_1 D2

/-- Everything after the region, as one function of the sources, the destinations, the weights, the normaliser
    column and the region's scaled rows. -/
def tailK (R C : IVec S1600000 32) (EW : FVec Ideal S1600000 .f32) (D2 : FVec Ideal S100000x1 .f32)
    (HP : FVec Ideal S100000x64 .bf16) : FVec Ideal S100000x64 .f32 :=
  mulf (disB D2) (addf (msgK R C EW HP) (extf .f32 HP bitsLt_bf16_f32))

/-! ## The index rows and the weights at an edge -/

theorem srcK_apply (x1 : IVec S2x1600000 32) (e : Fin 1600000) : srcK x1 (ix1 e) = x1 (ix2 (0 : Fin 2) e) := by
  unfold srcK
  refine (shapeCast_apply _ shapeCasts_S1x1600000_S1600000 (ix1 e) (ix2 (0 : Fin 1) e)
    (by rewrite [Shape.rowMajor_val_two, Shape.rowMajor_val_one]; show 0 * 1600000 + e.val = e.val; omega)).trans ?_
  exact extractStridedSlice_apply ![0, 0] x1 slices_S2x1600000_S1x1600000_0_0 (ix2 (0 : Fin 1) e) (ix2 (0 : Fin 2) e)
    (Fin.forall_fin_two.mpr ⟨rfl, by show e.val = 0 + e.val; omega⟩)

theorem dstK_apply (x1 : IVec S2x1600000 32) (e : Fin 1600000) : dstK x1 (ix1 e) = x1 (ix2 (1 : Fin 2) e) := by
  unfold dstK
  refine (shapeCast_apply _ shapeCasts_S1x1600000_S1600000 (ix1 e) (ix2 (0 : Fin 1) e)
    (by rewrite [Shape.rowMajor_val_two, Shape.rowMajor_val_one]; show 0 * 1600000 + e.val = e.val; omega)).trans ?_
  exact extractStridedSlice_apply ![1, 0] x1 slices_S2x1600000_S1x1600000_1_0 (ix2 (0 : Fin 1) e) (ix2 (1 : Fin 2) e)
    (Fin.forall_fin_two.mpr ⟨rfl, by show e.val = 0 + e.val; omega⟩)

theorem wgtK_apply (x2 : FVec Ideal S1600000x1 .f32) (e : Fin 1600000) : wgtK x2 (ix1 e) = x2 (ix2 e (0 : Fin 1)) := by
  unfold wgtK
  exact shapeCast_apply _ shapeCasts_S1600000x1_S1600000 (ix1 e) (ix2 e (0 : Fin 1))
    (by rewrite [Shape.rowMajor_val_two, Shape.rowMajor_val_one]; show e.val * 1 + 0 = e.val; omega)

/-! ## Broadcasts read at an index -/

section Broadcasts
variable {α : Type}

/-- A per-edge array as an `[edges, 1]` column. -/
theorem bcol_apply (R : S1600000.Idx → α) (e : Fin 1600000) :
    broadcastInDim S1600000x1 ![0] bcast_S1600000_S1600000x1_0 R (ix2 e (0 : Fin 1)) = R (ix1 e) :=
  broadcastInDim_apply _ bcast_S1600000_S1600000x1_0 R (ix2 e (0 : Fin 1)) (ix1 e)
    (Fin.forall_fin_one.mpr (by show e.val = if (1600000 : Nat) = 1 then 0 else e.val; rw [if_neg (by decide)]))

/-- An `[edges, 1]` column repeated along the features. -/
theorem bfeat_apply (Y : S1600000x1.Idx → α) (e : Fin 1600000) (q : Fin 64) :
    broadcastInDim S1600000x64 ![0, 1] bcast_S1600000x1_S1600000x64_0_1 Y (ix2 e q) = Y (ix2 e (0 : Fin 1)) :=
  broadcastInDim_apply _ bcast_S1600000x1_S1600000x64_0_1 Y (ix2 e q) (ix2 e (0 : Fin 1))
    (Fin.forall_fin_two.mpr ⟨by show e.val = if (1600000 : Nat) = 1 then 0 else e.val; rw [if_neg (by decide)],
      by show 0 = if (1 : Nat) = 1 then 0 else q.val; rw [if_pos rfl]⟩)

/-- A `[nodes, 1]` column repeated along the features. -/
theorem bnode_apply (D2 : S100000x1.Idx → α) (n : Fin 100000) (q : Fin 64) :
    broadcastInDim S100000x64 ![0, 1] bcast_S100000x1_S100000x64_0_1 D2 (ix2 n q) = D2 (ix2 n (0 : Fin 1)) :=
  broadcastInDim_apply _ bcast_S100000x1_S100000x64_0_1 D2 (ix2 n q) (ix2 n (0 : Fin 1))
    (Fin.forall_fin_two.mpr ⟨by show n.val = if (100000 : Nat) = 1 then 0 else n.val; rw [if_neg (by decide)],
      by show 0 = if (1 : Nat) = 1 then 0 else q.val; rw [if_pos rfl]⟩)

end Broadcasts

/-- A scalar spread over the nodes reads that scalar. -/
theorem bnodes_scalar (y : S_.Idx → EReal) (n : Fin 100000) :
    broadcastInDim S100000 ![] bcast_S_S100000 y (ix1 n) = y ix0 :=
  broadcastInDim_apply _ bcast_S_S100000 y (ix1 n) ix0 (fun a => a.elim0)
/-- A scalar spread over the edges reads that scalar. -/
theorem bedges_scalar {α : Type} (y : S_.Idx → α) (e : Fin 1600000) :
    broadcastInDim S1600000 ![] bcast_S_S1600000 y (ix1 e) = y ix0 :=
  broadcastInDim_apply _ bcast_S_S1600000 y (ix1 e) ix0 (fun a => a.elim0)
/-- A scalar spread over the result reads that scalar. -/
theorem bout_scalar (y : S_.Idx → EReal) (n : Fin 100000) (q : Fin 64) :
    broadcastInDim S100000x64 ![] bcast_S_S100000x64 y (ix2 n q) = y ix0 :=
  broadcastInDim_apply _ bcast_S_S100000x64 y (ix2 n q) ix0 (fun a => a.elim0)

/-- The wrap-around adjustment leaves a node number alone. -/
theorem wrapK_apply (R : IVec S1600000 32) (e : Fin 1600000) (h0 : 0 ≤ (R (ix1 e)).toInt) : wrapK R (ix1 e) = R (ix1 e) := by
  have hz : (broadcastInDim S1600000 ![] bcast_S_S1600000 (constantI S_ 32 0#32)) (ix1 e) = 0#32 :=
    bedges_scalar (constantI S_ 32 0#32) e
  unfold wrapK
  show Scalar.select (IntOp.cmpi .slt (R (ix1 e)) ((broadcastInDim S1600000 ![] bcast_S_S1600000 (constantI S_ 32 0#32)) (ix1 e))) _ (R (ix1 e)) = R (ix1 e)
  rw [hz]
  exact wrap_id _ _ h0

/-! ## The constant arrays at an index: each is its float word, never evaluated -/

theorem zerosN_apply (n : Fin 100000) : zerosN (ix1 n) = zeroW := by
  unfold zerosN
  exact (bnodes_scalar (constant (F := Ideal) S_ .f32 0x00000000#32) n).trans
    (constant_apply (s := S_) (φ := .f32) 0x00000000#32 ix0)
theorem onesN_apply (n : Fin 100000) : onesN (ix1 n) = oneW := by
  unfold onesN
  exact (bnodes_scalar (constant (F := Ideal) S_ .f32 0x3F800000#32) n).trans
    (constant_apply (s := S_) (φ := .f32) 0x3F800000#32 ix0)
theorem onesE_apply (e : Fin 1600000) : onesE (ix1 e) = oneW := by
  unfold onesE
  exact (bedges_scalar (constant (F := Ideal) S_ .f32 0x3F800000#32) e).trans
    (constant_apply (s := S_) (φ := .f32) 0x3F800000#32 ix0)
theorem floorN_apply (n : Fin 100000) : floorN (ix1 n) = floorW := by
  unfold floorN
  exact (bnodes_scalar (id (constant (F := Ideal) S_ .f32 0x2B8CBCCC#32)) n).trans
    (constant_apply (s := S_) (φ := .f32) 0x2B8CBCCC#32 ix0)
theorem mhalfN_apply (n : Fin 100000) : mhalfN (ix1 n) = mhalfW := by
  unfold mhalfN
  exact (bnodes_scalar (constant (F := Ideal) S_ .f32 0xBF000000#32) n).trans
    (constant_apply (s := S_) (φ := .f32) 0xBF000000#32 ix0)
theorem zerosNC_apply (n : Fin 100000) (q : Fin 64) : zerosNC (ix2 n q) = zeroW := by
  unfold zerosNC
  exact (bout_scalar (constant (F := Ideal) S_ .f32 0x00000000#32) n q).trans
    (constant_apply (s := S_) (φ := .f32) 0x00000000#32 ix0)
theorem colOf_apply (R : IVec S1600000 32) (e : Fin 1600000) : colOf R (ix2 e (0 : Fin 1)) = R (ix1 e) := by
  unfold colOf
  exact bcol_apply R e
theorem wgtB_apply (EW : FVec Ideal S1600000 .f32) (e : Fin 1600000) (q : Fin 64) : wgtB EW (ix2 e q) = EW (ix1 e) := by
  unfold wgtB
  rw [bfeat_apply, bcol_apply]
theorem disB_apply (D2 : FVec Ideal S100000x1 .f32) (n : Fin 100000) (q : Fin 64) : disB D2 (ix2 n q) = D2 (ix2 n (0 : Fin 1)) := by
  unfold disB
  exact bnode_apply D2 n q

/-- A host power at an index is the extended reals' power of the elements (stated over arbitrary arrays). -/
theorem hostPowf_apply {s : Shape} {φ : FTy} (a b : FVec Ideal s φ) (i : s.Idx) : Host.powf a b i = Ideal.pow (a i) (b i) := rfl

/-! ## Degrees and normalisers -/

/-- The count at a node: zero plus a one for every edge that ends in it. -/
theorem cntK_apply (x1 : IVec S2x1600000 32) (col : Fin 1600000 → Fin 100000) (hcol : IsDst x1 col) (n : Fin 100000) :
    cntK x1 (ix1 n) = zeroW + cnt col n := by
  unfold cntK
  refine (flatScatterAdd_apply (N := 100000) (M := 1600000) scatter_S100000_S1600000x1_S1600000_n_0_0_1.wf
    zerosN (colOf (dstK x1)) onesE n).trans ?_
  unfold cnt
  refine congrArg₂ (· + ·) (zerosN_apply n) (Finset.sum_congr rfl (fun e _ => ?_))
  refine if_congr ?_ (onesE_apply e) rfl
  rw [colOf_apply, dstK_apply, hcol e]
  exact node_eq_iff _ _

/-- A node's degree: the count plus one. -/
theorem degK_apply (x1 : IVec S2x1600000 32) (col : Fin 1600000 → Fin 100000) (hcol : IsDst x1 col) (n : Fin 100000) :
    degK x1 (ix1 n) = (zeroW + cnt col n) + oneW := by
  have h1 := cntK_apply x1 col hcol n
  generalize cnt col n = K at h1 ⊢
  unfold degK
  exact (addf_apply (cntK x1) onesN (ix1 n)).trans (congrArg₂ (· + ·) h1 (onesN_apply n))

/-- A node's entry of the normaliser column: the floored degree to the power −1/2. -/
theorem disK_apply (x1 : IVec S2x1600000 32) (col : Fin 1600000 → Fin 100000) (hcol : IsDst x1 col) (n : Fin 100000) :
    disK x1 (ix2 n (0 : Fin 1)) = disA col n := by
  have hd := degK_apply x1 col hcol n
  unfold disA disOf
  generalize cnt col n = K at hd ⊢
  unfold disK
  refine (shapeCast_apply _ shapeCasts_S100000_S100000x1 (ix2 n (0 : Fin 1)) (ix1 n)
    (by rewrite [Shape.rowMajor_val_one, Shape.rowMajor_val_two]; show n.val = n.val * 1 + 0; omega)).trans ?_
  refine (hostPowf_apply (maximumf floorN (degK x1)) mhalfN (ix1 n)).trans ?_
  refine congrArg₂ Ideal.pow ?_ (mhalfN_apply n)
  exact (maximumf_apply floorN (degK x1) (ix1 n)).trans (congrArg₂ max (floorN_apply n) hd)

/-! ## The tail at an element -/

/-- A gathered scaled row: the source's row, the wrap-around and the clamp doing nothing to a node number. -/
theorem gthK_apply (R : IVec S1600000 32) (HP : FVec Ideal S100000x64 .bf16) (row : Fin 1600000 → Fin 100000)
    (hR : ∀ e, (R (ix1 e)).toInt = ((row e).val : ℤ)) (e : Fin 1600000) (q : Fin 64) :
    gthK R HP (ix2 e q) = HP (ix2 (row e) q) := by
  unfold gthK
  exact rowGather_apply_of_eq (N := 100000) (M := 1600000) (C := 64) gather_S100000x64_S1600000x1_S1600000x64_1_0_n_n_0_1_164.wf HP
    (colOf (wrapK R)) e q (row e)
    (by rw [colOf_apply, wrapK_apply R e (by rw [hR e]; omega)]; exact hR e)

/-- An edge's message: its source's scaled row times its weight. -/
theorem updK_apply (R : IVec S1600000 32) (EW : FVec Ideal S1600000 .f32) (HP : FVec Ideal S100000x64 .bf16)
    (row : Fin 1600000 → Fin 100000) (hR : ∀ e, (R (ix1 e)).toInt = ((row e).val : ℤ)) (e : Fin 1600000) (q : Fin 64) :
    updK R EW HP (ix2 e q) = HP (ix2 (row e) q) * EW (ix1 e) := by
  unfold updK
  exact (mulf_apply (extf .f32 (gthK R HP) bitsLt_bf16_f32) (wgtB EW) (ix2 e q)).trans
    (congrArg₂ (· * ·) ((extf_apply (gthK R HP) bitsLt_bf16_f32 (ix2 e q)).trans (gthK_apply R HP row hR e q)) (wgtB_apply EW e q))

/-- The message sum at node `n`, feature `q`. -/
theorem msgK_apply (R C : IVec S1600000 32) (EW : FVec Ideal S1600000 .f32) (HP : FVec Ideal S100000x64 .bf16)
    (row col : Fin 1600000 → Fin 100000)
    (hR : ∀ e, (R (ix1 e)).toInt = ((row e).val : ℤ)) (hC : ∀ e, (C (ix1 e)).toInt = ((col e).val : ℤ))
    (n : Fin 100000) (q : Fin 64) :
    msgK R C EW HP (ix2 n q) = zeroW + ∑ e : Fin 1600000, if col e = n then HP (ix2 (row e) q) * EW (ix1 e) else 0 := by
  unfold msgK
  refine (rowScatterAdd_apply (N := 100000) (M := 1600000) (C := 64) scatter_S100000x64_S1600000x1_S1600000x64_1_0_0_1.wf
    zerosNC (colOf (wrapK C)) (updK R EW HP) n q).trans ?_
  refine congrArg₂ (· + ·) (zerosNC_apply n q) (Finset.sum_congr rfl (fun e _ => ?_))
  refine if_congr ?_ (updK_apply R EW HP row hR e q) rfl
  rw [colOf_apply, wrapK_apply C e (by rw [hC e]; omega), hC e]
  exact node_eq_iff _ _

/-- EVERYTHING AFTER THE REGION, AT NODE `n`, FEATURE `q`: the node's normaliser times (zero, plus the scaled rows
    of the sources of the edges ending in `n`, each times its weight, plus the node's own scaled row). -/
theorem tailK_apply (R C : IVec S1600000 32) (EW : FVec Ideal S1600000 .f32) (D2 : FVec Ideal S100000x1 .f32)
    (HP : FVec Ideal S100000x64 .bf16) (row col : Fin 1600000 → Fin 100000)
    (hR : ∀ e, (R (ix1 e)).toInt = ((row e).val : ℤ)) (hC : ∀ e, (C (ix1 e)).toInt = ((col e).val : ℤ))
    (n : Fin 100000) (q : Fin 64) :
    tailK R C EW D2 HP (ix2 n q)
      = D2 (ix2 n (0 : Fin 1)) * ((zeroW + ∑ e : Fin 1600000, if col e = n then HP (ix2 (row e) q) * EW (ix1 e) else 0)
          + HP (ix2 n q)) := by
  have hm := msgK_apply R C EW HP row col hR hC n q
  generalize (∑ e : Fin 1600000, if col e = n then HP (ix2 (row e) q) * EW (ix1 e) else 0) = S at hm ⊢
  unfold tailK
  refine (mulf_apply (disB D2) (addf (msgK R C EW HP) (extf .f32 HP bitsLt_bf16_f32)) (ix2 n q)).trans ?_
  refine congrArg₂ (· * ·) (disB_apply D2 n q) ?_
  refine (addf_apply (msgK R C EW HP) (extf .f32 HP bitsLt_bf16_f32) (ix2 n q)).trans ?_
  exact congrArg₂ (· + ·) hm (extf_apply HP bitsLt_bf16_f32 (ix2 n q))

/-! ## The kernel program's value -/

/-- The kernel program's result as one function of its four arguments: the tail applied to the host stages and to
    the region's scaled rows. -/
def resultK (x0 : FVec Ideal S100000x64 .f32) (x1 : IVec S2x1600000 32) (x2 : FVec Ideal S1600000x1 .f32)
    (x3 : FVec Ideal S64x64 .f32) : FVec Ideal S100000x64 .f32 :=
  tailK (srcK x1) (dstK x1) (wgtK x2) (disK x1) (hprime x0 x3 (disK x1))

/-- A scaled row of the region's output: the row of `x · Wᵀ` times the node's normaliser. -/
theorem hprime_apply (x0 : FVec Ideal S100000x64 .f32) (x3 : FVec Ideal S64x64 .f32) (d : FVec Ideal S100000x1 .f32)
    (n : Fin 100000) (q : Fin 64) : hprime x0 x3 d (ix2 n q) = lin x0 x3 n q * d (ix2 n (0 : Fin 1)) := rfl

/-- THE KERNEL PROGRAM'S RESULT AT NODE `n`, FEATURE `q`: the "scale the rows first" arrangement of the layer. -/
theorem resultK_apply (x0 : FVec Ideal S100000x64 .f32) (x1 : IVec S2x1600000 32) (x2 : FVec Ideal S1600000x1 .f32)
    (x3 : FVec Ideal S64x64 .f32) (row col : Fin 1600000 → Fin 100000) (hrow : IsSrc x1 row) (hcol : IsDst x1 col)
    (n : Fin 100000) (q : Fin 64) :
    resultK x0 x1 x2 x3 (ix2 n q) = outEdgeFirst row col (fun e => x2 (ix2 e (0 : Fin 1))) (lin x0 x3) n q := by
  unfold resultK
  refine (tailK_apply (srcK x1) (dstK x1) (wgtK x2) (disK x1) (hprime x0 x3 (disK x1)) row col
    (fun e => by rw [srcK_apply]; exact hrow e) (fun e => by rw [dstK_apply]; exact hcol e) n q).trans ?_
  unfold outEdgeFirst
  refine congrArg₂ (· * ·) (disK_apply x1 col hcol n) ?_
  refine congrArg₂ (· + ·) (congrArg (zeroW + ·) (Finset.sum_congr rfl fun e _ => ?_)) ?_
  · refine if_congr Iff.rfl ?_ rfl
    refine congrArg₂ (· * ·) ?_ (wgtK_apply x2 e)
    exact (hprime_apply x0 x3 (disK x1) (row e) q).trans (congrArg (lin x0 x3 (row e) q * ·) (disK_apply x1 col hcol (row e)))
  · exact (hprime_apply x0 x3 (disK x1) n q).trans (congrArg (lin x0 x3 n q * ·) (disK_apply x1 col hcol n))

end Cert.KernelIdeal.HostValue

end
-- ==== Proof.RegionValue.lean ====
/-
  The value of the kernel region's output array.

  The region runs over a grid of 20 points. At point `t` it loads rows `5000 t … 5000 t + 4999` of the node features `x`
  (`[100000, 64]`), the whole weight matrix `W` (`[64, 64]`) and the same rows of a per-node column `d` (`[100000, 1]`), and
  stores, into the same rows of the output, the product of the feature block with `Wᵀ` — both operands contracted along their
  second axis, accumulated from zero — multiplied entry by entry by the column broadcast along the 64 features. Over the
  extended reals the changes of float format are the identity, so entry `(p, q)` of the block stored at point `t` is
  `(∑ k, x[5000 t + p, k] · W[q, k]) · d[5000 t + p, 0]`: the entry of `Cert.Gcn.hprime x W d` at row `5000 t + p`. The 20 blocks
  of 5000 rows tile the 100000 rows (row `r` lies in block `r / 5000`), so after the region the output array is `hprime x W d`.

  First the payload at an entry (`payload_entry`), from the contraction read at an entry (`matmul_entry`) and the column's
  broadcast (`broadcastTo_a1_ab_apply`); then where each window's block sits (`block_indices`) and what each loaded block
  reads (`features_read`, `weights_read`, `column_read`); then the stored block as a block of `hprime` (`stored_entry`,
  `written_block`, `flushed_eq`), the tiling (`mem_blk`, `covered`) and the array (`final`).
-/
import proofs.«139451_j10788957847626_2_alg».proof.Proof.Gen.KernelIdeal.Frame
import proofs.«139451_j10788957847626_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region
open Cert.KernelIdeal Cert.KernelIdeal.Gen Idealize.ShloMosaic Idealize.ShloMosaic.TcCoe Idealize.SL.Sem
open Idealize.ShloMosaic.ValueIdx

/-! ## The body's payload at an entry -/

/-- A column `[a, 1]` broadcast along `b` features reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row is the output's row … -/
theorem lhsIdx_row (j : S5000x64.Idx) (k : dot_S5000x64_S64x64_S5000x64_1_1_0_0_n_n.contr.Idx) :
    (dot_S5000x64_S64x64_S5000x64_1_1_0_0_n_n.lhsIdx j k 0).val = (j 0).val := by
  unfold DotDims.lhsIdx
  rw [dif_neg (show ¬(0 : Fin S5000x64.rank) ∈ dot_S5000x64_S64x64_S5000x64_1_1_0_0_n_n.lhsBatch by decide), dif_pos (show (0 : Fin S5000x64.rank) ∈ dot_S5000x64_S64x64_S5000x64_1_1_0_0_n_n.lhsNonContracting by decide)]
  rfl
/-- … its column the contracted feature; -/
theorem lhsIdx_contracted (j : S5000x64.Idx) (k : dot_S5000x64_S64x64_S5000x64_1_1_0_0_n_n.contr.Idx) :
    (dot_S5000x64_S64x64_S5000x64_1_1_0_0_n_n.lhsIdx j k 1).val = (k ⟨0, by decide⟩).val :=
  dot_S5000x64_S64x64_S5000x64_1_1_0_0_n_n.lhsIdx_val_of_single rfl j k
/-- the right operand's row is the output's column … -/
theorem rhsIdx_row (j : S5000x64.Idx) (k : dot_S5000x64_S64x64_S5000x64_1_1_0_0_n_n.contr.Idx) :
    (dot_S5000x64_S64x64_S5000x64_1_1_0_0_n_n.rhsIdx j k 0).val = (j 1).val := by
  unfold DotDims.rhsIdx
  rw [dif_neg (show ¬(0 : Fin S64x64.rank) ∈ dot_S5000x64_S64x64_S5000x64_1_1_0_0_n_n.rhsBatch by decide), dif_pos (show (0 : Fin S64x64.rank) ∈ dot_S5000x64_S64x64_S5000x64_1_1_0_0_n_n.rhsNonContracting by decide)]
  rfl
/-- … and its column the contracted feature too: both operands are contracted along their second axis. -/
theorem rhsIdx_contracted (j : S5000x64.Idx) (k : dot_S5000x64_S64x64_S5000x64_1_1_0_0_n_n.contr.Idx) :
    (dot_S5000x64_S64x64_S5000x64_1_1_0_0_n_n.rhsIdx j k 1).val = (k ⟨0, by decide⟩).val :=
  dot_S5000x64_S64x64_S5000x64_1_1_0_0_n_n.rhsIdx_val_of_single rfl j k

/-- The product of a `[5000, 64]` block with the transpose of a `[64, 64]` matrix, accumulated from zero: entry `(p, q)` is the
    sum over the 64 contracted features `k` of `l[p, k] · r[q, k]`. -/
theorem matmul_entry (l : FVec Ideal S5000x64 .bf16) (r : FVec Ideal S64x64 .bf16) (p : Fin 5000) (q : Fin 64) :
    matmul dot_S5000x64_S64x64_S5000x64_1_1_0_0_n_n none l r (constant (F := Ideal) S5000x64 .f32 0x00000000#32) (ix2 p q)
      = ∑ k : Fin 64, l (ix2 p k) * r (ix2 q k) := by
  refine (Ideal.matmul_constant_zero_apply dot_S5000x64_S64x64_S5000x64_1_1_0_0_n_n none l r (ix2 p q)).trans ?_
  rw [← Equiv.sum_comp (contrEquiv1 dot_S5000x64_S64x64_S5000x64_1_1_0_0_n_n 64 rfl rfl).symm]
  refine Finset.sum_congr rfl fun k _ => ?_
  have hk := contrEquiv1_symm_val dot_S5000x64_S64x64_S5000x64_1_1_0_0_n_n 64 rfl rfl k
  have el : dot_S5000x64_S64x64_S5000x64_1_1_0_0_n_n.lhsIdx (ix2 p q) ((contrEquiv1 dot_S5000x64_S64x64_S5000x64_1_1_0_0_n_n 64 rfl rfl).symm k) = ix2 p k :=
    funext fun a => Fin.ext (by
      match a with
      | ⟨0, _⟩ => exact lhsIdx_row _ _
      | ⟨1, _⟩ => exact (lhsIdx_contracted _ _).trans hk)
  have er : dot_S5000x64_S64x64_S5000x64_1_1_0_0_n_n.rhsIdx (ix2 p q) ((contrEquiv1 dot_S5000x64_S64x64_S5000x64_1_1_0_0_n_n 64 rfl rfl).symm k) = ix2 q k :=
    funext fun a => Fin.ext (by
      match a with
      | ⟨0, _⟩ => exact rhsIdx_row _ _
      | ⟨1, _⟩ => exact (rhsIdx_contracted _ _).trans hk)
  rw [el, er]

/-- What the body stores at entry `(p, q)` of its output block, from the three blocks it loads: the contraction of row `p` of the
    feature block with row `q` of the weight matrix, times the column block's entry of row `p`. The format changes are the
    identity on the extended reals. -/
theorem payload_entry (x0 : Vec Ideal S5000x64 .f32) (x1 : Vec Ideal S64x64 .f32) (x2 : Vec Ideal S5000x1 .f32)
    (p : Fin 5000) (q : Fin 64) :
    k0_pay1 x0 x1 x2 (ix2 p q) = (∑ k : Fin 64, x0 (ix2 p k) * x1 (ix2 q k)) * x2 (ix2 p (0 : Fin 1)) := by
  unfold k0_pay1
  rw [truncf_apply, mulf_apply, matmul_entry, shapeCast_self]
  refine congrArg₂ (· * ·) ?_ (broadcastTo_a1_ab_apply x2 broadcasts_S5000x1_S5000x64 p q)
  rfl

/-! ## From the blocks to the array -/

theorem zero_offsets : (![0, 0] : Fin 2 → Nat) = fun _ => 0 := funext fun a => by fin_cases a <;> rfl

/-- Where each window's block sits at grid point `t`: the feature rows, the column and the output move down by one block of rows
    per point; the weight matrix is staged whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `(p, k)` of the feature window's block at point `t` is entry `(5000 t + p, k)` of the array it is cut from. -/
theorem features_read (A : Vec Ideal S100000x64 .f32) (t : Fin cfg0.N) (p : Fin 5000) (k : Fin 64) (n : Fin 100000)
    (hn : n.val = 5000 * t.val + p.val) :
    ((cfg0.win 0).blk t).view.read (Elt Ideal) A (ix2 p k) = A (ix2 n k) := by
  obtain ⟨e0, e1, -⟩ := block_indices t
  show A (((cfg0.win 0).blk t).view.emb (ix2 p k)) = A (ix2 n k)
  refine congrArg A (funext fun a => Fin.ext ?_)
  match a with
  | ⟨0, _⟩ => show win0_0.index t (0 : Fin 2) * 5000 + 1 * p.val = n.val; rw [e0, hn]; omega
  | ⟨1, _⟩ => show win0_0.index t (1 : Fin 2) * 64 + 1 * k.val = k.val; rw [e1]; omega

/-- The weight window's block at every point is the whole matrix. -/
theorem weights_read (A : Vec Ideal S64x64 .f32) (t : Fin cfg0.N) (q : Fin 64) (k : Fin 64) :
    ((cfg0.win 1).blk t).view.read (Elt Ideal) A (ix2 q k) = A (ix2 q k) := by
  obtain ⟨-, -, e0, e1, -⟩ := block_indices t
  show A (((cfg0.win 1).blk t).view.emb (ix2 q k)) = A (ix2 q k)
  refine congrArg A (funext fun a => Fin.ext ?_)
  match a with
  | ⟨0, _⟩ => show win0_1.index t (0 : Fin 2) * 64 + 1 * q.val = q.val; rw [e0]; omega
  | ⟨1, _⟩ => show win0_1.index t (1 : Fin 2) * 64 + 1 * k.val = k.val; rw [e1]; omega

/-- Entry `p` of the column window's block at point `t` is entry `5000 t + p` of the column it is cut from. -/
theorem column_read (A : Vec Ideal S100000x1 .f32) (t : Fin cfg0.N) (p : Fin 5000) (n : Fin 100000)
    (hn : n.val = 5000 * t.val + p.val) :
    ((cfg0.win 2).blk t).view.read (Elt Ideal) A (ix2 p (0 : Fin 1)) = A (ix2 n (0 : Fin 1)) := by
  obtain ⟨-, -, -, -, e0, e1, -⟩ := block_indices t
  show A (((cfg0.win 2).blk t).view.emb (ix2 p (0 : Fin 1))) = A (ix2 n (0 : Fin 1))
  refine congrArg A (funext fun a => Fin.ext ?_)
  match a with
  | ⟨0, _⟩ => show win0_2.index t (0 : Fin 2) * 5000 + 1 * p.val = n.val; rw [e0, hn]; omega
  | ⟨1, _⟩ => show win0_2.index t (1 : Fin 2) * 1 + 1 * 0 = 0; rw [e1]

/-- What a point `t` stores at entry `j` of its output block is `hprime` at the entry `i` of the array that sits `5000 t` rows below,
    whenever the three loaded blocks are the matching rows of `X`, the whole of `W` and the matching rows of `D`: the payload's
    sum runs over the same features of the same node, and its scale is that node's entry of the column. -/
theorem stored_entry (X : FVec Ideal Cert.Gcn.SX .f32) (W : FVec Ideal Cert.Gcn.SW .f32) (D : FVec Ideal Cert.Gcn.SD .f32)
    (x0 : Vec Ideal S5000x64 .f32) (x1 : Vec Ideal S64x64 .f32) (x2 : Vec Ideal S5000x1 .f32) (t : ℕ)
    (h0 : ∀ (p : Fin 5000) (k : Fin 64) (n : Fin 100000), n.val = 5000 * t + p.val → x0 (ix2 p k) = X (ix2 n k))
    (h1 : ∀ q k : Fin 64, x1 (ix2 q k) = W (ix2 q k))
    (h2 : ∀ (p : Fin 5000) (n : Fin 100000), n.val = 5000 * t + p.val → x2 (ix2 p (0 : Fin 1)) = D (ix2 n (0 : Fin 1)))
    (j : S5000x64.Idx) (i : Cert.Gcn.SX.Idx)
    (hi0 : (i 0).val = 5000 * t + (j 0).val) (hi1 : (i 1).val = (j 1).val) :
    k0_pay1 x0 x1 x2 j = Cert.Gcn.hprime X W D i := by
  obtain ⟨p, q, rfl⟩ : ∃ (p : Fin 5000) (q : Fin 64), j = ix2 p q := ⟨j 0, j 1, eq_ix2 j⟩
  obtain ⟨n, q', rfl⟩ : ∃ (n : Fin 100000) (q' : Fin 64), i = ix2 n q' := ⟨i 0, i 1, eq_ix2 i⟩
  obtain rfl : q' = q := Fin.ext hi1
  have hn : n.val = 5000 * t + p.val := hi0
  refine (payload_entry x0 x1 x2 p q').trans ?_
  show _ = (∑ k : Fin 64, X (ix2 n k) * W (ix2 q' k)) * D (ix2 n (0 : Fin 1))
  rw [h2 p n hn]
  refine congrArg (· * _) (Finset.sum_congr rfl fun k _ => ?_)
  rw [h0 p k n hn, h1 q' k]

/-- The output window's block at point `t`, cut from the buffer the body leaves, is block `t` of `hprime X W D` under the same
    three hypotheses on the loaded blocks. -/
theorem written_block (t : Fin cfg0.N)
    (X : FVec Ideal Cert.Gcn.SX .f32) (W : FVec Ideal Cert.Gcn.SW .f32) (D : FVec Ideal Cert.Gcn.SD .f32)
    (x0 : Vec Ideal S5000x64 .f32) (x1 : Vec Ideal S64x64 .f32) (x2 : Vec Ideal S5000x1 .f32)
    (h0 : ∀ (p : Fin 5000) (k : Fin 64) (n : Fin 100000), n.val = 5000 * t.val + p.val → x0 (ix2 p k) = X (ix2 n k))
    (h1 : ∀ q k : Fin 64, x1 (ix2 q k) = W (ix2 q k))
    (h2 : ∀ (p : Fin 5000) (n : Fin 100000), n.val = 5000 * t.val + p.val → x2 (ix2 p (0 : Fin 1)) = D (ix2 n (0 : Fin 1))) :
    (cfg0.win 3).cut (grid0.coords t) (out0_3 x0 x1 x2)
      = ((cfg0.win 3).blk t).view.read (Elt Ideal) (Cert.Gcn.hprime X W D) := by
  unfold out0_3
  rw [View.canon_unit_zero zero_offsets]
  simp only [View.ld_unit_zero (S := S5000x64) zero_offsets, View.ld_unit_zero (S := S64x64) zero_offsets, View.ld_unit_zero (S := S5000x1) zero_offsets]
  obtain ⟨-, -, -, -, -, -, e0, e1⟩ := block_indices t
  funext j
  show k0_pay1 x0 x1 x2 j = Cert.Gcn.hprime X W D (((cfg0.win 3).blk t).view.emb j)
  refine stored_entry X W D x0 x1 x2 t.val h0 h1 h2 j _ ?_ ?_
  · show win0_3.index t (0 : Fin 2) * 5000 + 1 * (j 0).val = 5000 * t.val + (j 0).val; rw [e0]; omega
  · show win0_3.index t (1 : Fin 2) * 64 + 1 * (j 1).val = (j 1).val; rw [e1]; omega

/-- WHAT POINT `t` WRITES BACK is block `t` of `hprime` of the arrays as the region finds them. -/
theorem flushed_eq (m : (ℓ : Loc nD τ sig) → Buf (Elt Ideal) ℓ) (c : Dev nD) (t : Fin cfg0.N) :
    (dats m 0 c).flushed 3 t
      = ((cfg0.win 3).blk t).view.read (Elt Ideal) (Cert.Gcn.hprime (V m c main_arg0) (V m c main_arg3) (V m c main_v14)) := by
  show (cfg0.win 3).cut (grid0.coords t) ((dats m 0 c).after 3 t) = _
  rw [after0_3]
  refine written_block t _ _ _ _ _ _ ?_ ?_ ?_
  · intro p k n hn; unfold iblk; exact features_read _ t p k n hn
  · intro q k; unfold iblk; exact weights_read _ t q k
  · intro p n hn; unfold iblk; exact column_read _ t p n hn

/-- An entry of the array is in point `t`'s output block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v15).slice (win0_3.rect t)).set ↔ _
  rw [View.set_slice_whole, Rect.mem_set_unit]
  exact Iff.rfl

/-- Every entry of the array is written back by some point: row `r` by point `r / 5000`. -/
theorem covered (i : S100000x64.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 64 := (i 1).isLt
  obtain ⟨t, ht⟩ : ∃ t : Fin cfg0.N, t.val = (i 0).val / 5000 := ⟨⟨(i 0).val / 5000, by omega⟩, rfl⟩
  obtain ⟨-, -, -, -, -, -, e0, e1⟩ := block_indices t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 64 ≤ (i 1).val ∧ (i 1).val < win0_3.index t (1 : Fin 2) * 64 + 64; rw [e1]; omega

/-- THE OUTPUT ARRAY after the region: the rows of `x · Wᵀ`, each scaled by its node's entry of the column. -/
theorem final (m : (ℓ : Loc nD τ sig) → Buf (Elt Ideal) ℓ) (c : Dev nD) :
    (Gen.dats m 0 c).arrAt 3 cfg0.N = Cert.Gcn.hprime (Gen.V m c main_arg0) (Gen.V m c main_arg3) (Gen.V m c main_v14) :=
  (dats m 0 c).arrAt_eq_of_cover 3 (Cert.Gcn.hprime (V m c main_arg0) (V m c main_arg3) (V m c main_v14))
    (fun t _ => flushed_eq m c t) covered

end Cert.KernelIdeal.Region

end
-- ==== Proof.KernelRun.lean ====
/-
  The kernel program's run: it terminates, leaves its arguments as they were, and ends with its result at the
  value computed from the arguments.

  The run is the generated frame run around the one device region. What the region finds in the buffers the host
  wrote before it — the source and destination rows, the flattened weights, the normaliser column — is read back as
  the host stages of the arguments; what the region leaves in its output array is the rows of `x · Wᵀ` scaled by the
  normaliser column; and the host operations after the region, applied to those, are the tail. Composed, the final
  buffer holds the kernel program's value `resultK` of the four arguments.
-/
import proofs.«139451_j10788957847626_2_alg».proof.Proof.KernelHost
import proofs.«139451_j10788957847626_2_alg».proof.Proof.RegionValue
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg)

/-- The source row as the region finds it. -/
theorem found_src (c : Dev nD) : Gen.V m c main_v1 = srcK (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  unfold srcK
  rfl

/-- The destination row as the region finds it. -/
theorem found_dst (c : Dev nD) : Gen.V m c main_v3 = dstK (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  unfold dstK
  rfl

/-- The flattened weights as the region finds them. -/
theorem found_wgt (c : Dev nD) : Gen.V m c main_v4 = wgtK (m ((c.tc : Thread nD τ).loc main_arg2)) := by
  dsimp only [Gen.V, Gen.V0]
  simp only [Gen.hostOps0, Gen.hostOps0_1, Gen.hostOps0_2, List.flatten_cons, List.flatten_nil, List.append_nil, List.cons_append, List.nil_append]
  after_results_simp
  unfold wgtK
  rfl

/-! ### The degree floor as the outlined `clip` spells it

The floor is applied by a small outlined function whose three values live in typed buffers; each use of such a buffer
transports the contents along the buffer's (trivial) type equation. The stages below carry those transports exactly
as the program does, and are then shown equal to the plain stages over an arbitrary degree array. -/

/-- The typed buffers the outlined function's lines use. -/
abbrev tFloor : TRef sig ⟨S_, .f32⟩ := TRef.of main_cst_2
abbrev tConv : TRef sig ⟨S_, .f32⟩ := TRef.of main_call0_v0
abbrev tSpread : TRef sig ⟨S100000, .f32⟩ := TRef.of main_call0_v1
abbrev tDeg : TRef sig ⟨S100000, .f32⟩ := TRef.of main_v10
abbrev tClip : TRef sig ⟨S100000, .f32⟩ := TRef.of main_v11

/-- The floor spread over the nodes, with the transports of the outlined function's buffers. -/
def floorNw : FVec Ideal S100000 .f32 :=
  tSpread.ofBuf (Val := Elt Ideal) (tSpread.toBuf (Val := Elt Ideal)
    (broadcastInDim S100000 ![] bcast_S_S100000
      (tConv.ofBuf (Val := Elt Ideal) (tConv.toBuf (Val := Elt Ideal)
        (id (tFloor.ofBuf (Val := Elt Ideal) (constant (F := Ideal) S_ .f32 0x2B8CBCCC#32)))))))

/-- The transports are identities: the floor array is the plain one. -/
theorem floorNw_eq : floorNw = floorN := rfl

/-- The floored degrees, with the transports. -/
def clipw (Dg : FVec Ideal S100000 .f32) : FVec Ideal S100000 .f32 :=
  tClip.toBuf (Val := Elt Ideal)
    (maximumf (F := Ideal) (s := S100000) (φ := .f32) floorNw (tDeg.ofBuf (Val := Elt Ideal) Dg))

/-- Over any degree array the transports are identities. -/
theorem clipw_eq (Dg : FVec Ideal S100000 .f32) : clipw Dg = maximumf floorN Dg := by
  unfold clipw
  rw [floorNw_eq]
  rfl

/-- The normaliser column with the transports. -/
def disKw (x1 : IVec S2x1600000 32) : FVec Ideal S100000x1 .f32 :=
  shapeCast S100000x1 (Host.powf (clipw (degK x1)) mhalfN) shapeCasts_S100000_S100000x1

/-- It is the normaliser column. -/
theorem disKw_eq (x1 : IVec S2x1600000 32) : disKw x1 = disK x1 := by
  unfold disKw disK
  rw [clipw_eq]

/-- The normaliser column as the region finds it, spelt with the outlined function's transports: the read-back is
    done against a variable, which is then the spelt column, and the two sides are the same text. -/
theorem found_disw (c : Dev nD) : Gen.V m c main_v14 = disKw (m ((c.tc : Thread nD τ).loc main_arg1)) := by
  generalize hG : disKw (m ((c.tc : Thread nD τ).loc main_arg1)) = G
  dsimp only [Gen.V, Gen.V0]
  simp only [Gen.hostOps0, Gen.hostOps0_1, Gen.hostOps0_2, List.flatten_cons, List.flatten_nil, List.append_nil, List.cons_append, List.nil_append]
  after_results_simp
  subst hG
  unfold disKw clipw floorNw degK cntK zerosN onesN onesE mhalfN colOf dstK
  rfl

/-- The normaliser column as the region finds it. -/
theorem found_dis (c : Dev nD) : Gen.V m c main_v14 = disK (m ((c.tc : Thread nD τ).loc main_arg1)) :=
  (found_disw m c).trans (disKw_eq _)
/-! ## What the host operations after the region see -/

/-- The region's output array, as the tail sees it: the rows of `x · Wᵀ` scaled by the normaliser column. -/
theorem seen_out (c : Dev nD) :
    Pipeline.withArrays (cfgs 0).spec c (Gen.V0 m c) (fun w => (Gen.dats m 0 c).arrAt w (cfgs 0).N) (Proc.devRef .tc main_v15)
      = hprime (m ((c : Thread nD τ).loc main_arg0)) (m ((c : Thread nD τ).loc main_arg3)) (disK (m ((c.tc : Thread nD τ).loc main_arg1))) :=
  (Pipeline.withArrays_arr spec0 launch0.win.arr_inj c _ _ 3).trans
    ((Cert.KernelIdeal.Region.final m c).trans
      (congr (congrArg₂ hprime (Gen.V_main_arg0 m c) (Gen.V_main_arg3 m c)) (found_dis m c)))

/-- The normaliser column, an input array of the region, as the tail sees it: as the region found it. -/
theorem seen_dis (c : Dev nD) :
    Pipeline.withArrays (cfgs 0).spec c (Gen.V0 m c) (fun w => (Gen.dats m 0 c).arrAt w (cfgs 0).N) (Proc.devRef .tc main_v14)
      = disK (m ((c.tc : Thread nD τ).loc main_arg1)) :=
  (Pipeline.withArrays_arr spec0 launch0.win.arr_inj c _ _ 2).trans
    (((Gen.dats m 0 c).arrAt_in 2 rfl _).trans ((Gen.A_eq m c 2).trans (found_dis m c)))

/-- The source row, the destination row and the weights are no arrays of the region: the tail sees what the host
    wrote before it. -/
theorem seen_src (c : Dev nD) :
    Pipeline.withArrays (cfgs 0).spec c (Gen.V0 m c) (fun w => (Gen.dats m 0 c).arrAt w (cfgs 0).N) (Proc.devRef .tc main_v1)
      = srcK (m ((c.tc : Thread nD τ).loc main_arg1)) :=
  (Pipeline.withArrays_of_ne _ c (Gen.V0 m c) _ main_v1 (by exact (by decide : ∀ w, Pipeline.arrRef spec0 w ≠ main_v1))).trans
    (found_src m c)
theorem seen_dst (c : Dev nD) :
    Pipeline.withArrays (cfgs 0).spec c (Gen.V0 m c) (fun w => (Gen.dats m 0 c).arrAt w (cfgs 0).N) (Proc.devRef .tc main_v3)
      = dstK (m ((c.tc : Thread nD τ).loc main_arg1)) :=
  (Pipeline.withArrays_of_ne _ c (Gen.V0 m c) _ main_v3 (by exact (by decide : ∀ w, Pipeline.arrRef spec0 w ≠ main_v3))).trans
    (found_dst m c)
theorem seen_wgt (c : Dev nD) :
    Pipeline.withArrays (cfgs 0).spec c (Gen.V0 m c) (fun w => (Gen.dats m 0 c).arrAt w (cfgs 0).N) (Proc.devRef .tc main_v4)
      = wgtK (m ((c.tc : Thread nD τ).loc main_arg2)) :=
  (Pipeline.withArrays_of_ne _ c (Gen.V0 m c) _ main_v4 (by exact (by decide : ∀ w, Pipeline.arrRef spec0 w ≠ main_v4))).trans
    (found_wgt m c)

/-! ## The result buffer -/

/-- What the host operations after the region leave in the result buffer: the kernel program's value of the four
    arguments. The operations are read back in one pass; the five buffers they read are replaced by what the tail
    sees; what is left is the tail's definition, unfolded. -/
theorem tail_value (c : Dev nD) :
    Pipeline.afterTail₀ cfgs (Gen.dats m) 0 (Gen.V0 m) [hostOps1] c main_v38
      = resultK (m ((c : Thread nD τ).loc main_arg0)) (m ((c.tc : Thread nD τ).loc main_arg1))
          (m ((c.tc : Thread nD τ).loc main_arg2)) (m ((c : Thread nD τ).loc main_arg3)) := by
  unfold Pipeline.afterTail₀
  show StableHlo.after hostOps1 _ (Proc.devRef .tc main_v38) = _
  after_results_simp
  rw [seen_out m c, seen_dis m c, seen_src m c, seen_dst m c, seen_wgt m c]
  unfold resultK tailK disB msgK zerosNC colOf wrapK updK gthK wgtB
  rfl

/-! ## The run -/

/-- THE KERNEL PROGRAM'S RUN: every weakly fair execution terminates without a fault, the result buffer ends at the
    program's value of the arguments, and the argument arrays end as they were. -/
theorem run : θ_run defs (onTc (τ := τ) (main (F := Ideal))) ⟨m, fun _ => 0, ρ⟩ (fun r => ∀ c : Dev nD,
      r.2.mem ((c.tc : Thread nD τ).loc main_v38)
        = resultK (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v38 (Pipeline.mem_restRefs_of main_v38 (by decide) (by decide))).trans (tail_value m c),
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).1 1).trans (((Gen.dats m 0 c).arrAt_in 1 rfl _).trans ((Gen.A_eq m c 1).trans (Gen.V_main_arg3 m c)))⟩)
    (Gen.run_main m ρ)

end Cert.KernelIdeal.HostValue

end
-- ==== Proof.RefValue.lean ====
/-
  The reference program's result, read at one element.

  The reference appends one self loop per node to the edge list (sources, destinations and weights are each a
  concatenation of the 1600000 given entries with 100000 more), counts each node's degree by adding a one at every
  destination, raises the floored degree to the power −1/2, multiplies each edge's weight by the normalisers of its
  two ends, gathers the rows of `x · Wᵀ` at the sources, scales them, and adds each into its destination's row.
  Read at node `n`, feature `q`, every sum over the 1700000 appended edges splits into the sum over the given
  edges and the sum over the nodes' self loops; the result is the per-edge arrangement of the layer
  (`Cert.Gcn.outPerEdge`). The edge list's words are node numbers (the hypotheses `hrow`, `hcol`), so the
  wrap-around adjustment and the gather's clamp leave them alone.
-/
import proofs.«139451_j10788957847626_2_alg».proof.Proof.Gen.ReferenceIdeal.Read
import proofs.«139451_j10788957847626_2_alg».proof.Proof.Spec
import proofs.«139451_j10788957847626_2_alg».proof.Proof.Words
import proofs.«139451_j10788957847626_2_alg».proof.Proof.LibScatterGather

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Gcn Cert.Gcn.Words Cert.Lib.Rows

/-- Given edge `e` among the appended edges … -/
def lft (e : Fin 1600000) : Fin 1700000 := ⟨e.val, by omega⟩
/-- … and node `n`'s self loop. -/
def rgt (n : Fin 100000) : Fin 1700000 := ⟨1600000 + n.val, by omega⟩

/-- A sum over the appended edges is the sum over the given edges plus the sum over the self loops. -/
theorem sum_split {A : Type*} [AddCommMonoid A] (f : Fin 1700000 → A) :
    ∑ e', f e' = ∑ e : Fin 1600000, f (lft e) + ∑ n : Fin 100000, f (rgt n) :=
  Fin.sum_univ_add (a := 1600000) (b := 100000) f

variable (x0 : (⟨S100000x64, .f32⟩ : BufTy).Contents (Elt Ideal)) (x1 : (⟨S2x1600000, .i32⟩ : BufTy).Contents (Elt Ideal))
  (x2 : (⟨S1600000x1, .f32⟩ : BufTy).Contents (Elt Ideal)) (x3 : (⟨S64x64, .f32⟩ : BufTy).Contents (Elt Ideal))

/-! ## The appended arrays -/

/-- A given edge's source word is the edge list's first row. -/
theorem src_given (e : Fin 1600000) : val_main_v3 (F := Ideal) x1 (ix1 (lft e)) = x1 (ix2 (0 : Fin 2) e) := by
  unfold val_main_v3
  refine (concatenate_pair_apply_left (t := S1700000) (s₁ := S1600000) (s₂ := S100000) (0 : Fin 1) _ _ concatenates_S1600000_S100000_S1700000_d0 (ix1 (lft e)) rfl (ix1 e)
    (Fin.forall_fin_one.mpr rfl)).trans ?_
  rw [val_main_v2_apply, val_main_v1_apply]
  refine congrArg x1 (funext (Fin.forall_fin_two.mpr ⟨Fin.ext rfl, Fin.ext ?_⟩))
  show e.val % 1600000 = e.val
  have := e.isLt; omega

/-- A self loop's source word is its node's number. -/
theorem src_self (n : Fin 100000) : val_main_v3 (F := Ideal) x1 (ix1 (rgt n)) = BitVec.ofNat 32 n.val := by
  unfold val_main_v3
  exact concatenate_pair_apply_right (t := S1700000) (s₁ := S1600000) (s₂ := S100000) (0 : Fin 1) _ _ concatenates_S1600000_S100000_S1700000_d0 (ix1 (rgt n)) rfl rfl (ix1 n)
    (Fin.forall_fin_one.mpr (fun h => absurd rfl h)) (by show n.val + 1600000 = 1600000 + n.val; omega)

/-- A given edge's destination word is the edge list's second row. -/
theorem dst_given (e : Fin 1600000) : val_main_v6 (F := Ideal) x1 (ix1 (lft e)) = x1 (ix2 (1 : Fin 2) e) := by
  unfold val_main_v6
  refine (concatenate_pair_apply_left (t := S1700000) (s₁ := S1600000) (s₂ := S100000) (0 : Fin 1) _ _ concatenates_S1600000_S100000_S1700000_d0 (ix1 (lft e)) rfl (ix1 e)
    (Fin.forall_fin_one.mpr rfl)).trans ?_
  rw [val_main_v5_apply, val_main_v4_apply]
  refine congrArg x1 (funext (Fin.forall_fin_two.mpr ⟨Fin.ext rfl, Fin.ext ?_⟩))
  show e.val % 1600000 = e.val
  have := e.isLt; omega

/-- A self loop's destination word is its node's number. -/
theorem dst_self (n : Fin 100000) : val_main_v6 (F := Ideal) x1 (ix1 (rgt n)) = BitVec.ofNat 32 n.val := by
  unfold val_main_v6
  exact concatenate_pair_apply_right (t := S1700000) (s₁ := S1600000) (s₂ := S100000) (0 : Fin 1) _ _ concatenates_S1600000_S100000_S1700000_d0 (ix1 (rgt n)) rfl rfl (ix1 n)
    (Fin.forall_fin_one.mpr (fun h => absurd rfl h)) (by show n.val + 1600000 = 1600000 + n.val; omega)

/-- A given edge's weight is the weight column's entry. -/
theorem wgt_given (e : Fin 1600000) : val_main_v9 (F := Ideal) x2 (ix1 (lft e)) = x2 (ix2 e (0 : Fin 1)) := by
  unfold val_main_v9
  refine (concatenate_pair_apply_left (t := S1700000) (s₁ := S1600000) (s₂ := S100000) (0 : Fin 1) _ _ concatenates_S1600000_S100000_S1700000_d0 (ix1 (lft e)) rfl (ix1 e)
    (Fin.forall_fin_one.mpr rfl)).trans ?_
  rw [val_main_v7_apply]
  refine congrArg x2 (funext (Fin.forall_fin_two.mpr ⟨Fin.ext ?_, Fin.ext rfl⟩))
  show e.val / 1 = e.val
  omega

/-- A self loop's weight is one. -/
theorem wgt_self (n : Fin 100000) : val_main_v9 (F := Ideal) x2 (ix1 (rgt n)) = oneW := by
  unfold val_main_v9
  refine (concatenate_pair_apply_right (t := S1700000) (s₁ := S1600000) (s₂ := S100000) (0 : Fin 1) _ _ concatenates_S1600000_S100000_S1700000_d0 (ix1 (rgt n)) rfl rfl (ix1 n)
    (Fin.forall_fin_one.mpr (fun h => absurd rfl h)) (by show n.val + 1600000 = 1600000 + n.val; omega)).trans ?_
  rw [val_main_v8_apply]
  rfl

/-! ## The edge list's words are node numbers -/

variable (row col : Fin 1600000 → Fin 100000)

/-- The destination column handed to the two scatters is the appended destination array. -/
theorem dst_col (e' : Fin 1700000) : val_main_v12 (F := Ideal) x1 (ix2 e' (0 : Fin 1)) = val_main_v6 (F := Ideal) x1 (ix1 e') := by
  rw [val_main_v12_apply]
  exact congrArg _ (funext (Fin.forall_fin_one.mpr (Fin.ext rfl)))

theorem dst_col' (e' : Fin 1700000) : val_main_v46 (F := Ideal) x1 (ix2 e' (0 : Fin 1)) = val_main_v6 (F := Ideal) x1 (ix1 e') := by
  rw [val_main_v46_apply]
  exact congrArg _ (funext (Fin.forall_fin_one.mpr (Fin.ext rfl)))

/-! ## Degrees and normalisers -/

/-- A node's degree: the zero it starts from, plus the given edges that end in it, plus its self loop. -/
theorem deg_eq (hcol : IsDst x1 col) (n : Fin 100000) : val_main_v13 (F := Ideal) x1 (ix1 n) = zeroW + (cnt col n + oneW) := by
  unfold val_main_v13
  refine (flatScatterAdd_apply (N := 100000) (M := 1700000) scatter_S100000_S1700000x1_S1700000_n_0_0_1.wf
    (val_main_v11 (F := Ideal)) (val_main_v12 (F := Ideal) x1) (val_main_v10 (F := Ideal)) n).trans ?_
  have h11 : val_main_v11 (F := Ideal) (ix1 n) = zeroW := by rw [val_main_v11_apply, val_main_cst_1_apply]; rfl
  have h10 : ∀ e' : Fin 1700000, val_main_v10 (F := Ideal) (ix1 e') = oneW := fun e' => by
    rw [val_main_v10_apply, val_main_cst_0_apply]; rfl
  refine congrArg₂ (· + ·) h11 ?_
  refine (sum_split _).trans (congrArg₂ (· + ·) ?_ ?_)
  · unfold cnt
    refine Finset.sum_congr rfl (fun e _ => ?_)
    rw [dst_col, dst_given, h10]
    exact if_congr (by rw [hcol e]; exact node_eq_iff _ _) rfl rfl
  · refine (Finset.sum_congr rfl (fun n' _ => ?_)).trans (Finset.sum_ite_eq' Finset.univ n (fun _ => oneW)) |>.trans (if_pos (Finset.mem_univ n))
    rw [dst_col, dst_self, h10]
    exact if_congr (by rw [toInt_ofNat n'.val n'.isLt]; exact node_eq_iff _ _) rfl rfl

/-- A node's normaliser. -/
theorem dis_eq (hcol : IsDst x1 col) (n : Fin 100000) : val_main_v16 (F := Ideal) x1 (ix1 n) = disB col n := by
  rw [val_main_v16_apply, val_main_v14_apply, val_main_call0_v1_apply, val_main_call0_v0_apply, val_main_cst_2_apply,
    val_main_v15_apply, val_main_cst_3_apply, deg_eq x1 col hcol n]
  rfl

/-! ## Sources and destinations after the wrap-around adjustment -/

/-- The wrapped source array (built for the normaliser's gather) at a given edge … -/
theorem wsrcA_given (hrow : IsSrc x1 row) (e : Fin 1600000) :
    val_main_v21 (F := Ideal) x1 (ix1 (lft e)) = x1 (ix2 (0 : Fin 2) e) := by
  rw [val_main_v21_apply, val_main_v18_apply, val_main_v17_apply, val_main_c_apply, src_given]
  exact wrap_id _ _ (by rw [hrow e]; omega)
/-- … and at a self loop. -/
theorem wsrcA_self (n : Fin 100000) : val_main_v21 (F := Ideal) x1 (ix1 (rgt n)) = BitVec.ofNat 32 n.val := by
  rw [val_main_v21_apply, val_main_v18_apply, val_main_v17_apply, val_main_c_apply, src_self]
  exact wrap_id _ _ (by rw [toInt_ofNat _ n.isLt]; omega)

/-- The wrapped source array built again for the rows' gather. -/
theorem wsrcB_given (hrow : IsSrc x1 row) (e : Fin 1600000) :
    val_main_v39 (F := Ideal) x1 (ix1 (lft e)) = x1 (ix2 (0 : Fin 2) e) := by
  rw [val_main_v39_apply, val_main_v36_apply, val_main_v35_apply, val_main_c_7_apply, src_given]
  exact wrap_id _ _ (by rw [hrow e]; omega)
theorem wsrcB_self (n : Fin 100000) : val_main_v39 (F := Ideal) x1 (ix1 (rgt n)) = BitVec.ofNat 32 n.val := by
  rw [val_main_v39_apply, val_main_v36_apply, val_main_v35_apply, val_main_c_7_apply, src_self]
  exact wrap_id _ _ (by rw [toInt_ofNat _ n.isLt]; omega)

/-- The wrapped destination array. -/
theorem wdst_given (hcol : IsDst x1 col) (e : Fin 1600000) :
    val_main_v29 (F := Ideal) x1 (ix1 (lft e)) = x1 (ix2 (1 : Fin 2) e) := by
  rw [val_main_v29_apply, val_main_v26_apply, val_main_v25_apply, val_main_c_5_apply, dst_given]
  exact wrap_id _ _ (by rw [hcol e]; omega)
theorem wdst_self (n : Fin 100000) : val_main_v29 (F := Ideal) x1 (ix1 (rgt n)) = BitVec.ofNat 32 n.val := by
  rw [val_main_v29_apply, val_main_v26_apply, val_main_v25_apply, val_main_c_5_apply, dst_self]
  exact wrap_id _ _ (by rw [toInt_ofNat _ n.isLt]; omega)

/-- The three index columns, read at a row. -/
theorem colA (e' : Fin 1700000) : val_main_v22 (F := Ideal) x1 (ix2 e' (0 : Fin 1)) = val_main_v21 (F := Ideal) x1 (ix1 e') := by
  rw [val_main_v22_apply]; exact congrArg _ (funext (Fin.forall_fin_one.mpr (Fin.ext rfl)))
theorem colB (e' : Fin 1700000) : val_main_v40 (F := Ideal) x1 (ix2 e' (0 : Fin 1)) = val_main_v39 (F := Ideal) x1 (ix1 e') := by
  rw [val_main_v40_apply]; exact congrArg _ (funext (Fin.forall_fin_one.mpr (Fin.ext rfl)))
theorem colD (e' : Fin 1700000) : val_main_v30 (F := Ideal) x1 (ix2 e' (0 : Fin 1)) = val_main_v29 (F := Ideal) x1 (ix1 e') := by
  rw [val_main_v30_apply]; exact congrArg _ (funext (Fin.forall_fin_one.mpr (Fin.ext rfl)))

/-! ## Each edge's coefficient -/

/-- The source's normaliser, gathered: at a given edge … -/
theorem gsrc_given (hrow : IsSrc x1 row) (hcol : IsDst x1 col) (e : Fin 1600000) :
    val_main_v23 (F := Ideal) x1 (ix1 (lft e)) = disB col (row e) := by
  unfold val_main_v23
  refine (flatGather_apply_of_eq (N := 100000) (M := 1700000) gather_S100000_S1700000x1_S1700000_n_0_n_n_0_1_1.wf _ _ (lft e) (row e)
    (by rw [colA, wsrcA_given x1 row hrow e]; exact hrow e)).trans (dis_eq x1 col hcol (row e))
/-- … and at a self loop. -/
theorem gsrc_self (hcol : IsDst x1 col) (n : Fin 100000) :
    val_main_v23 (F := Ideal) x1 (ix1 (rgt n)) = disB col n := by
  unfold val_main_v23
  refine (flatGather_apply_of_eq (N := 100000) (M := 1700000) gather_S100000_S1700000x1_S1700000_n_0_n_n_0_1_1.wf _ _ (rgt n) n
    (by rw [colA, wsrcA_self]; exact toInt_ofNat _ n.isLt)).trans (dis_eq x1 col hcol n)

/-- The destination's normaliser, gathered. -/
theorem gdst_given (hcol : IsDst x1 col) (e : Fin 1600000) :
    val_main_v31 (F := Ideal) x1 (ix1 (lft e)) = disB col (col e) := by
  unfold val_main_v31
  refine (flatGather_apply_of_eq (N := 100000) (M := 1700000) gather_S100000_S1700000x1_S1700000_n_0_n_n_0_1_1.wf _ _ (lft e) (col e)
    (by rw [colD, wdst_given x1 col hcol e]; exact hcol e)).trans (dis_eq x1 col hcol (col e))
theorem gdst_self (hcol : IsDst x1 col) (n : Fin 100000) :
    val_main_v31 (F := Ideal) x1 (ix1 (rgt n)) = disB col n := by
  unfold val_main_v31
  refine (flatGather_apply_of_eq (N := 100000) (M := 1700000) gather_S100000_S1700000x1_S1700000_n_0_n_n_0_1_1.wf _ _ (rgt n) n
    (by rw [colD, wdst_self]; exact toInt_ofNat _ n.isLt)).trans (dis_eq x1 col hcol n)

/-- A given edge's coefficient: source normaliser × weight × destination normaliser … -/
theorem coef_given (hrow : IsSrc x1 row) (hcol : IsDst x1 col) (e : Fin 1600000) :
    val_main_v32 (F := Ideal) x1 x2 (ix1 (lft e)) = (disB col (row e) * x2 (ix2 e (0 : Fin 1))) * disB col (col e) := by
  rw [val_main_v32_apply, val_main_v24_apply, gsrc_given x1 row col hrow hcol e, wgt_given, gdst_given x1 col hcol e]
  rfl
/-- … and a self loop's. -/
theorem coef_self (hcol : IsDst x1 col) (n : Fin 100000) :
    val_main_v32 (F := Ideal) x1 x2 (ix1 (rgt n)) = (disB col n * oneW) * disB col n := by
  rw [val_main_v32_apply, val_main_v24_apply, gsrc_self x1 col hcol n, wgt_self, gdst_self x1 col hcol n]
  rfl

/-- The coefficient broadcast along the features. -/
theorem coef_bcast (e' : Fin 1700000) (q : Fin 64) :
    val_main_v43 (F := Ideal) x1 x2 (ix2 e' q) = val_main_v32 (F := Ideal) x1 x2 (ix1 e') := by
  rw [val_main_v43_apply, val_main_v42_apply]
  exact congrArg _ (funext (Fin.forall_fin_one.mpr (Fin.ext rfl)))

/-! ## The transformed features and their gathered rows -/

/-- `x · Wᵀ` at an element: the transpose followed by the contraction is the sum over the input features. -/
theorem lin_eq (n : Fin 100000) (q : Fin 64) : val_main_v34 (F := Ideal) x0 x3 (ix2 n q) = lin x0 x3 n q := by
  rw [val_main_v34_apply]
  unfold lin
  refine Finset.sum_congr rfl (fun k _ => ?_)
  rw [val_main_v33_apply]
  exact congrArg₂ (· * ·) (congrArg x0 (funext (Fin.forall_fin_two.mpr ⟨Fin.ext rfl, Fin.ext rfl⟩)))
    (congrArg x3 (funext (Fin.forall_fin_two.mpr ⟨Fin.ext rfl, Fin.ext rfl⟩)))

/-- The source's row of `x · Wᵀ`, gathered: at a given edge … -/
theorem grow_given (hrow : IsSrc x1 row) (e : Fin 1600000) (q : Fin 64) :
    val_main_v41 (F := Ideal) x0 x1 x3 (ix2 (lft e) q) = lin x0 x3 (row e) q := by
  unfold val_main_v41
  refine (rowGather_apply_of_eq (N := 100000) (M := 1700000) (C := 64) gather_S100000x64_S1700000x1_S1700000x64_1_0_n_n_0_1_164.wf _ _ (lft e) q (row e)
    (by rw [colB, wsrcB_given x1 row hrow e]; exact hrow e)).trans (lin_eq x0 x3 (row e) q)
/-- … and at a self loop. -/
theorem grow_self (n : Fin 100000) (q : Fin 64) :
    val_main_v41 (F := Ideal) x0 x1 x3 (ix2 (rgt n) q) = lin x0 x3 n q := by
  unfold val_main_v41
  refine (rowGather_apply_of_eq (N := 100000) (M := 1700000) (C := 64) gather_S100000x64_S1700000x1_S1700000x64_1_0_n_n_0_1_164.wf _ _ (rgt n) q n
    (by rw [colB, wsrcB_self]; exact toInt_ofNat _ n.isLt)).trans (lin_eq x0 x3 n q)

/-! ## The result -/

/-- THE REFERENCE'S RESULT AT NODE `n`, FEATURE `q`: the per-edge arrangement of the layer. -/
theorem out_eq (hrow : IsSrc x1 row) (hcol : IsDst x1 col) (n : Fin 100000) (q : Fin 64) :
    val_main_v47 (F := Ideal) x0 x1 x2 x3 (ix2 n q)
      = outPerEdge row col (fun e => x2 (ix2 e (0 : Fin 1))) (lin x0 x3) n q := by
  unfold val_main_v47
  refine (rowScatterAdd_apply (N := 100000) (M := 1700000) (C := 64) scatter_S100000x64_S1700000x1_S1700000x64_1_0_0_1.wf
    (val_main_v45 (F := Ideal)) (val_main_v46 (F := Ideal) x1) (val_main_v44 (F := Ideal) x0 x1 x2 x3) n q).trans ?_
  have h45 : val_main_v45 (F := Ideal) (ix2 n q) = zeroW := by rw [val_main_v45_apply, val_main_cst_9_apply]; rfl
  unfold outPerEdge
  refine congrArg₂ (· + ·) h45 ?_
  refine (sum_split _).trans (congrArg₂ (· + ·) ?_ ?_)
  · refine Finset.sum_congr rfl (fun e _ => ?_)
    rw [dst_col', dst_given, val_main_v44_apply, grow_given x0 x1 x3 row hrow e q, coef_bcast, coef_given x1 x2 row col hrow hcol e]
    exact if_congr (by rw [hcol e]; exact node_eq_iff _ _) rfl rfl
  · refine Finset.sum_congr rfl (fun n' _ => ?_)
    rw [dst_col', dst_self, val_main_v44_apply, grow_self x0 x1 x3 n' q, coef_bcast, coef_self x1 x2 col hcol n']
    exact if_congr (by rw [toInt_ofNat n'.val n'.isLt]; exact node_eq_iff _ _) rfl rfl

end Cert.ReferenceIdeal.RefValue

end
-- ==== Proof.Algebra.lean ====
/-
  The algebra of one graph-convolution layer over the extended reals: the four float words as numbers, the
  normaliser as a non-negative real, and the law that the two arrangements of the layer's sum agree.

  The law rests on one fact: multiplication by a non-negative real distributes over every sum of extended reals,
  infinite terms included. Everything else is commutativity and associativity of the product.
-/
import proofs.«139451_j10788957847626_2_alg».proof.Proof.Spec
import Mathlib.Data.EReal.Operations
import Mathlib.Analysis.SpecialFunctions.Pow.Real

open scoped BigOperators

namespace Cert.Gcn

open Idealize.ShloMosaic

/-! ### The four words -/

/-- the float word of 1.0 is one -/
theorem oneW_eq : oneW = 1 := by
  simp [Ideal.ofBits, Ideal.ieee, -EReal.coe_mul]; norm_num

/-- the float word of 0.0 is zero -/
theorem zeroW_eq : zeroW = 0 := by simp [Ideal.ofBits, Ideal.ieee]

/-- the exponent word is the real −1/2 -/
theorem mhalfW_eq : mhalfW = ((-(1 / 2) : ℝ) : EReal) := by
  simp [Ideal.ofBits, Ideal.ieee, -EReal.coe_mul]; norm_num

/-- the degree floor is a non-negative real, 9223372 · 2⁻⁶³ -/
theorem floorW_real : ∃ r : ℝ, 0 ≤ r ∧ floorW = (r : EReal) := by
  refine ⟨(9223372 : ℝ) * (2 : ℝ) ^ (-63 : ℤ), by positivity, ?_⟩
  simp [Ideal.ofBits, Ideal.ieee, -EReal.coe_mul]

/-! ### The normaliser -/

/-- Whatever the degree, the normaliser is a non-negative real: a degree of ⊤ gives 0, and any other degree,
    once floored, is a non-negative real whose power −1/2 is a non-negative real. -/
theorem disOf_real (a : EReal) : ∃ r : ℝ, 0 ≤ r ∧ disOf a = (r : EReal) := by
  obtain ⟨f, hf0, hf⟩ := floorW_real
  unfold disOf
  rw [hf, mhalfW_eq]
  induction a using EReal.rec with
  | bot =>
    refine ⟨Real.rpow f (-(1 / 2)), Real.rpow_nonneg hf0 _, ?_⟩
    rw [max_eq_left bot_le]
    rfl
  | coe x =>
    rcases le_total f x with hfx | hfx
    · refine ⟨Real.rpow x (-(1 / 2)), Real.rpow_nonneg (le_trans hf0 hfx) _, ?_⟩
      rw [max_eq_right (EReal.coe_le_coe_iff.2 hfx)]
      rfl
    · refine ⟨Real.rpow f (-(1 / 2)), Real.rpow_nonneg hf0 _, ?_⟩
      rw [max_eq_left (EReal.coe_le_coe_iff.2 hfx)]
      rfl
  | top =>
    refine ⟨0, le_refl 0, ?_⟩
    rw [max_eq_right le_top, Ideal.pow_top]
    have h1 : ¬ (0 : EReal) < ((-(1 / 2) : ℝ) : EReal) := by
      rw [not_lt]; exact_mod_cast (by norm_num : (-(1 / 2) : ℝ) ≤ 0)
    have h2 : ((-(1 / 2) : ℝ) : EReal) ≠ 0 := by
      exact_mod_cast (by norm_num : (-(1 / 2) : ℝ) ≠ 0)
    rw [if_neg h1, if_neg h2]
    rfl

/-- the normaliser is a non-negative real, whatever the degree (any extended real) -/
theorem disOf_nonneg (a : EReal) : 0 ≤ disOf a := by
  obtain ⟨r, hr0, hr⟩ := disOf_real a
  rw [hr]; exact_mod_cast hr0

theorem disOf_ne_top (a : EReal) : disOf a ≠ ⊤ := by
  obtain ⟨r, _, hr⟩ := disOf_real a
  rw [hr]; exact EReal.coe_ne_top r

/-- the two spellings of the degree give one normaliser -/
theorem disA_eq_disB (col : Fin 1600000 → Fin 100000) (n : Fin 100000) : disA col n = disB col n := by
  unfold disA disB
  rw [add_assoc]

/-! ### The law -/

/-- A non-negative real factor goes inside any finite sum of extended reals. -/
theorem mul_sum_of_nonneg_ne_top {ι : Type} (d : EReal) (hd : 0 ≤ d) (hd' : d ≠ ⊤) (s : Finset ι)
    (f : ι → EReal) : d * ∑ i ∈ s, f i = ∑ i ∈ s, d * f i := by
  classical
  induction s using Finset.induction_on with
  | empty => simp
  | insert a s ha ih =>
    rw [Finset.sum_insert ha, Finset.sum_insert ha, EReal.left_distrib_of_nonneg_of_ne_top hd hd', ih]

/-- The law with the normalisers as an arbitrary function D of the node whose value at n is a non-negative
    real: that factor goes inside the edge sum and inside each edge's choice, and on the chosen edges
    D (col e) is D n. -/
theorem law_core (row col : Fin 1600000 → Fin 100000) (ew : Fin 1600000 → EReal)
    (h : Fin 100000 → Fin 64 → EReal) (n : Fin 100000) (q : Fin 64) (D : Fin 100000 → EReal)
    (hd : 0 ≤ D n) (hd' : D n ≠ ⊤) :
    D n * ((∑ e : Fin 1600000, if col e = n then (h (row e) q * D (row e)) * ew e else 0) + h n q * D n)
      = (∑ e : Fin 1600000, if col e = n then h (row e) q * ((D (row e) * ew e) * D (col e)) else 0)
        + ∑ n' : Fin 100000, if n' = n then h n' q * (D n' * D n') else 0 := by
  have hself : (∑ n' : Fin 100000, if n' = n then h n' q * (D n' * D n') else 0) = D n * (h n q * D n) := by
    refine (Finset.sum_ite_eq' Finset.univ n (fun n' => h n' q * (D n' * D n'))).trans ?_
    rw [if_pos (Finset.mem_univ n)]
    ac_rfl
  have hedge : D n * (∑ e : Fin 1600000, if col e = n then (h (row e) q * D (row e)) * ew e else 0)
      = ∑ e : Fin 1600000, if col e = n then h (row e) q * ((D (row e) * ew e) * D (col e)) else 0 := by
    refine (mul_sum_of_nonneg_ne_top (D n) hd hd' _ _).trans ?_
    refine Finset.sum_congr rfl fun e _ => ?_
    by_cases hc : col e = n
    · rw [if_pos hc, if_pos hc, hc]
      ac_rfl
    · rw [if_neg hc, if_neg hc, mul_zero]
  refine (EReal.left_distrib_of_nonneg_of_ne_top hd hd' _ _).trans ?_
  exact congrArg₂ (· + ·) hedge hself.symm

/-- THE LAW: the two arrangements of the layer agree, for any extended-real h and ew. -/
theorem outEdgeFirst_eq_outPerEdge (row col : Fin 1600000 → Fin 100000) (ew : Fin 1600000 → EReal)
    (h : Fin 100000 → Fin 64 → EReal) (n : Fin 100000) (q : Fin 64) :
    outEdgeFirst row col ew h n q = outPerEdge row col ew h n q := by
  have hB : disB col = disA col := funext fun m => (disA_eq_disB col m).symm
  unfold outEdgeFirst outPerEdge
  rw [hB, zeroW_eq, oneW_eq, zero_add, zero_add]
  simp only [mul_one]
  exact law_core row col ew h n q (disA col) (disOf_nonneg _) (disOf_ne_top _)

end Cert.Gcn
-- ==== Proof.PreDecode.lean ====
/-
  What the precondition says about the edge list: every entry is a node number.

  The precondition is the conjunction of "every float input is finite" with "every entry of the edge list is at
  least zero and below 100000", the last conjunct a reduce-by-and over the whole `[2, 1600000]` array of the
  elementwise conjunction of the two signed comparisons. When the precondition is all ones that reduce is one, so
  every element of the compared array is one, so each entry's signed value lies in `[0, 100000)`. The sources
  `row e` and destinations `col e` are then the entries' values as node numbers.
-/
import proofs.«139451_j10788957847626_2_alg».proof.Pre_finite_inputs
import proofs.«139451_j10788957847626_2_alg».proof.Proof.Words
import Idealize.ShloMosaic.Lib.ReduceAll

noncomputable section

namespace Cert.Pre_finite_inputs.Decode

open Cert.Pre_finite_inputs Cert.Pre_finite_inputs.Facts Idealize.ShloMosaic Idealize.ShloMosaic.ValueIdx Cert.Gcn.Words

/-- The scalar shape has one index. -/
instance : Subsingleton S_.Idx := ⟨fun a b => funext fun d => d.elim0⟩

variable [Facts]

/-- Every entry of the edge list, read signed, lies in `[0, 100000)`. -/
theorem entry_in_range (x0 : FVec Ideal S100000x64 .f32) (x1 : IVec S2x1600000 32) (x2 : FVec Ideal S1600000x1 .f32)
    (x3 : FVec Ideal S64x64 .f32) (h : fn (F := Ideal) x0 x1 x2 x3 = fun _ => 1#1) (i : S2x1600000.Idx) :
    0 ≤ (x1 i).toInt ∧ (x1 i).toInt < 100000 := by
  have e := congrFun h ix0
  dsimp only [fn, fn_part1] at e
  have e2 := (IntOp.andi_eq_one.mp e).2
  have e3 := Host.reduce_andi_all _ _ reducesTo_S2x1600000_S_d0_1 h_S_ ix0 e2 i
  obtain ⟨h0, h1⟩ := IntOp.andi_eq_one.mp e3
  simp only [cmpi, broadcastInDim, constantI] at h0 h1
  have g0 := IntOp.cmpi_sge.mp h0
  have g1 := IntOp.cmpi_slt.mp h1
  have z0 : (0#32 : BitVec 32).toInt = 0 := by decide
  have z1 : (100000#32 : BitVec 32).toInt = 100000 := by decide
  rw [z0] at g0
  rw [z1] at g1
  exact ⟨g0, g1⟩

/-- So the edge list's two rows are node numbers. -/
theorem nodes_of_pre (x0 : FVec Ideal S100000x64 .f32) (x1 : IVec S2x1600000 32) (x2 : FVec Ideal S1600000x1 .f32)
    (x3 : FVec Ideal S64x64 .f32) (h : fn (F := Ideal) x0 x1 x2 x3 = fun _ => 1#1) :
    ∃ row col : Fin 1600000 → Fin 100000, IsSrc x1 row ∧ IsDst x1 col := by
  have hr := entry_in_range x0 x1 x2 x3 h
  refine ⟨fun e => ⟨(x1 (ix2 (0 : Fin 2) e)).toInt.toNat, by have := hr (ix2 (0 : Fin 2) e); omega⟩,
    fun e => ⟨(x1 (ix2 (1 : Fin 2) e)).toInt.toNat, by have := hr (ix2 (1 : Fin 2) e); omega⟩, fun e => ?_, fun e => ?_⟩
  · show (x1 (ix2 (0 : Fin 2) e)).toInt = (((x1 (ix2 (0 : Fin 2) e)).toInt.toNat : ℕ) : ℤ)
    have := hr (ix2 (0 : Fin 2) e); omega
  · show (x1 (ix2 (1 : Fin 2) e)).toInt = (((x1 (ix2 (1 : Fin 2) e)).toInt.toNat : ℕ) : ℤ)
    have := hr (ix2 (1 : Fin 2) e); omega

end Cert.Pre_finite_inputs.Decode

end
-- ==== Proof.lean ====
/-
  A graph-convolution layer with symmetric degree normalisation, computed two ways, gives one result on the
  extended reals.

  Both programs take node features `x : [100000, 64]`, an edge list `[2, 1600000]` of node numbers, edge weights
  `[1600000, 1]` and a weight matrix `W : [64, 64]`. With `h = x · Wᵀ`, `deg n` the number of edges ending in `n`
  plus one for a self loop, and `dis n` the floored degree to the power −1/2, the layer's value at node `n`, feature
  `q`, is the sum over the edges `e` ending in `n`, self loop included, of `h (row e) q · dis (row e) · w e · dis n`.

  The reference appends the self loops to the edge list and sums every edge's fully normalised term. The kernel
  program scales each row of `h` by its own normaliser inside the device region, sums the scaled rows over the
  incoming edges on the host, adds the node's own scaled row for the self loop, and multiplies by `dis n` once at the
  end. The two arrangements agree because `dis n` is a non-negative real number, and multiplication by such a
  number distributes over every sum of extended reals; no finiteness of the features or weights is used.

  The precondition says, beside finiteness of the float inputs, that every entry of the edge list is a node number.
  It is needed: the kernel program's final scatter wraps a negative destination around to a node while the
  reference's drops it, so on an edge list with a negative destination the two results differ.

  The frames of the two kernel programs are the generated ones; the reference's frame is its run with the result
  dropped; nothing was rewritten between the kernel program and its idealisation.
-/
import proofs.«139451_j10788957847626_2_alg».proof.Defs
import proofs.«139451_j10788957847626_2_alg».proof.Proof.Gen.Kernel
import proofs.«139451_j10788957847626_2_alg».proof.Proof.Gen.Kernel.Skeleton
import proofs.«139451_j10788957847626_2_alg».proof.Proof.Gen.Kernel.Launch
import proofs.«139451_j10788957847626_2_alg».proof.Proof.Gen.Kernel.Points
import proofs.«139451_j10788957847626_2_alg».proof.Proof.Gen.Kernel.Frame
import proofs.«139451_j10788957847626_2_alg».proof.Proof.Gen.KernelIdeal
import proofs.«139451_j10788957847626_2_alg».proof.Proof.Gen.KernelIdeal.Skeleton
import proofs.«139451_j10788957847626_2_alg».proof.Proof.Gen.KernelIdeal.Launch
import proofs.«139451_j10788957847626_2_alg».proof.Proof.Gen.KernelIdeal.Points
import proofs.«139451_j10788957847626_2_alg».proof.Proof.Gen.KernelIdeal.Frame
import proofs.«139451_j10788957847626_2_alg».proof.Proof.Gen.ReferenceIdeal
import proofs.«139451_j10788957847626_2_alg».proof.Proof.Gen.ReferenceIdeal.Run
import proofs.«139451_j10788957847626_2_alg».proof.Proof.Gen.ReferenceIdeal.Read
import proofs.«139451_j10788957847626_2_alg».proof.Proof.Gen.Pre_finite_inputs
import proofs.«139451_j10788957847626_2_alg».proof.Proof.KernelRun
import proofs.«139451_j10788957847626_2_alg».proof.Proof.RefValue
import proofs.«139451_j10788957847626_2_alg».proof.Proof.Algebra
import proofs.«139451_j10788957847626_2_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two values are one function of the arguments -/

/-- Under the precondition the reference's value and the kernel program's value agree at every element: the edge
    list's entries are node numbers, so the first is the per-edge arrangement of the layer and the second the
    "scale the rows first" arrangement, and the two arrangements agree on the extended reals. -/
theorem values_agree (x0 : FVec Ideal Cert.Gcn.SX .f32) (x1 : IVec Cert.Gcn.Words.SE 32)
    (x2 : FVec Ideal ⟨2, ![1600000, 1]⟩ .f32) (x3 : FVec Ideal Cert.Gcn.SW .f32)
    (hpre : Cert.Pre_finite_inputs.fn (F := Ideal) x0 x1 x2 x3 = fun _ => 1#1) :
    Cert.ReferenceIdeal.Read.val_main_v47 (F := Ideal) x0 x1 x2 x3 = Cert.KernelIdeal.HostValue.resultK x0 x1 x2 x3 := by
  obtain ⟨row, col, hrow, hcol⟩ := Cert.Pre_finite_inputs.Decode.nodes_of_pre x0 x1 x2 x3 hpre
  funext i
  obtain ⟨n, q, rfl⟩ : ∃ (n : Fin 100000) (q : Fin 64), i = ix2 n q := ⟨i 0, i 1, eq_ix2 i⟩
  exact (Cert.ReferenceIdeal.RefValue.out_eq x0 x1 x2 x3 row col hrow hcol n q).trans
    ((Cert.Gcn.outEdgeFirst_eq_outPerEdge row col _ _ n q).symm.trans
      (Cert.KernelIdeal.HostValue.resultK_apply x0 x1 x2 x3 row col hrow hcol n q).symm)

/-! ## The claims -/

/-- The kernel program as printed runs and leaves its arguments as they were: the generated frame. -/
theorem frame_k : Cert.frame_Kernel := fun m ρ _ => Cert.Kernel.Gen.frame m ρ
/-- So does its idealisation. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel program and its idealisation. -/
theorem preserves : Cert.preserves_Kernel_KernelIdeal := trivial

/-- From memories agreeing on the arguments both idealised programs run, leave their arguments as they were, and
    end with equal results: the kernel program's value of the arguments. -/
theorem algebraic : Cert.algebraic_KernelIdeal_ReferenceIdeal := by
  intro m ρ m' ρ' hpre hagree
  refine ⟨fun c => Cert.KernelIdeal.HostValue.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v47_eq m' c).trans ?_
  rw [(hagree c).1, (hagree c).2.1, (hagree c).2.2.1, (hagree c).2.2.2]
  exact values_agree _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
